-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x2048 : Shape := ⟨2, ![8, 2048]⟩
abbrev S256x128 : Shape := ⟨2, ![256, 128]⟩
abbrev S128 : Shape := ⟨1, ![128]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x4096x256 .f32) (main_arg1 : IVec S8x2048 32) (main_arg2 : FVec F S256x128 .f32) (main_arg3 : FVec F S128 .f32) (main_arg4 : FVec F S256x128 .f32) (main_arg5 : FVec F S128 .f32) (main_arg6 : FVec F S256x128 .f32) (main_arg7 : FVec F S128 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S8x4096x256 : Shape := ⟨3, ![8, 4096, 256]⟩
abbrev S8x2048 : Shape := ⟨2, ![8, 2048]⟩
abbrev S256x128 : Shape := ⟨2, ![256, 128]⟩
abbrev S128 : Shape := ⟨1, ![128]⟩
abbrev S8x2048x1 : Shape := ⟨3, ![8, 2048, 1]⟩
abbrev S_ : Shape := ⟨0, ![]⟩
abbrev S1 : Shape := ⟨1, ![1]⟩
abbrev S1x1x1 : Shape := ⟨3, ![1, 1, 1]⟩
abbrev S8x2048x256 : Shape := ⟨3, ![8, 2048, 256]⟩
abbrev S256x384 : Shape := ⟨2, ![256, 384]⟩
abbrev S384 : Shape := ⟨1, ![384]⟩
abbrev S8x2048x128 : Shape := ⟨3, ![8, 2048, 128]⟩
abbrev S8x2048x2048 : Shape := ⟨3, ![8, 2048, 2048]⟩
abbrev S1x2048x256 : Shape := ⟨3, ![1, 2048, 256]⟩
abbrev S1x512x128 : Shape := ⟨3, ![1, 512, 128]⟩
abbrev S1x512x2048 : Shape := ⟨3, ![1, 512, 2048]⟩
abbrev S2048x128 : Shape := ⟨2, ![2048, 128]⟩
abbrev S2048x256 : Shape := ⟨2, ![2048, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S512x128 : Shape := ⟨2, ![512, 128]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩

abbrev nBuf : Space → Nat
  | .hbm => 35
  | .vmem => 10
  | .smem => 0
  | _ => 0

abbrev bufTy : (tb : Table) → Fin (tcTables nBuf tb) → BufTy
  | .hbm, ⟨0, _⟩ => ⟨S8x4096x256, .f32⟩
  | .hbm, ⟨1, _⟩ => ⟨S8x2048, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S8x2048x1, .i32⟩
  | .hbm, ⟨9, _⟩ => ⟨S_, .i32⟩
  | .hbm, ⟨10, _⟩ => ⟨S8x2048x1, .i32⟩
  | .hbm, ⟨11, _⟩ => ⟨S8x2048x1, .i1⟩
  | .hbm, ⟨12, _⟩ => ⟨S_, .i32⟩
  | .hbm, ⟨13, _⟩ => ⟨S8x2048x1, .i32⟩
  | .hbm, ⟨14, _⟩ => ⟨S8x2048x1, .i32⟩
  | .hbm, ⟨15, _⟩ => ⟨S8x2048x1, .i32⟩
  | .hbm, ⟨16, _⟩ => ⟨S1, .i32⟩
  | .hbm, ⟨17, _⟩ => ⟨S_, .i32⟩
  | .hbm, ⟨18, _⟩ => ⟨S8x2048x1, .i32⟩
  | .hbm, ⟨19, _⟩ => ⟨S8x2048x1, .i1⟩
  | .hbm, ⟨20, _⟩ => ⟨S1x1x1, .i32⟩
  | .hbm, ⟨21, _⟩ => ⟨S8x2048x1, .i32⟩
  | .hbm, ⟨22, _⟩ => ⟨S8x2048x1, .i1⟩
  | .hbm, ⟨23, _⟩ => ⟨S8x2048x1, .i1⟩
  | .hbm, ⟨24, _⟩ => ⟨S_, .i1⟩
  | .hbm, ⟨25, _⟩ => ⟨S8x2048, .i1⟩
  | .hbm, ⟨26, _⟩ => ⟨S8x2048x256, .f32⟩
  | .hbm, ⟨27, _⟩ => ⟨S8x2048x256, .i1⟩
  | .hbm, ⟨28, _⟩ => ⟨S_, .f32⟩
  | .hbm, ⟨29, _⟩ => ⟨S8x2048x256, .f32⟩
  | .hbm, ⟨30, _⟩ => ⟨S8x2048x256, .f32⟩
  | .hbm, ⟨31, _⟩ => ⟨S256x384, .f32⟩
  | .hbm, ⟨32, _⟩ => ⟨S384, .f32⟩
  | .hbm, ⟨33, _⟩ => ⟨S8x2048x128, .f32⟩
  | .hbm, ⟨34, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x384, .f32⟩
  | .local _ .vmem, ⟨3, _⟩ => ⟨S384, .f32⟩
  | .local _ .vmem, ⟨4, _⟩ => ⟨S1x512x128, .f32⟩
  | .local _ .vmem, ⟨5, _⟩ => ⟨S1x512x128, .f32⟩
  | .local _ .vmem, ⟨6, _⟩ => ⟨S1x512x2048, .f32⟩
  | .local _ .vmem, ⟨7, _⟩ => ⟨S1x512x2048, .f32⟩
  | .local _ .vmem, ⟨8, _⟩ => ⟨S2048x128, .f32⟩
  | .local _ .vmem, ⟨9, _⟩ => ⟨S2048x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4_0 : Ref sig .tc := ⟨.hbm, 33, rfl⟩
abbrev main_v4_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v50 : Index := Scalar.indexCast v4
  let c0_22 : Index := 0#32
  ![v50.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x256_0_1 : S8x2048.BroadcastsInDim S8x2048x256 (![0, 1] : Fin 2 → Fin S8x2048x256.rank)
  bcast_S_S8x2048x256 : S_.BroadcastsInDim S8x2048x256 (![] : Fin 0 → Fin S8x2048x256.rank)
  concatenates_S256x128_S256x128_S256x128_S256x384_d1 : Shape.Concatenates [S256x128, S256x128, S256x128] S256x384 1
  concatenates_S128_S128_S128_S384_d0 : Shape.Concatenates [S128, S128, S128] S384 0
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x384_S256x256_0_128 : ∀ a, (![0, 128] : Fin 2 → Nat) a + S256x256.size a ≤ S256x384.size a
  h_S256x256 : 0 < S256x256.numel
  shapeCasts_S256x256_S256x256 : S256x256.ShapeCasts S256x256
  inb_S384_S256_128 : ∀ a, (![128] : Fin 1 → Nat) a + S256.size a ≤ S384.size a
  h_S256 : 0 < S256.numel
  shapeCasts_S256_S256 : S256.ShapeCasts S256
  shapeCasts_S256_S1x256 : S256.ShapeCasts S1x256
  broadcasts_S1x256_S2048x256 : S1x256.Broadcasts S2048x256
  slices_S2048x256_o0_0_S2048x128 : S2048x256.Slices ![0, 0] S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x256_o0_128_S2048x128 : S2048x256.Slices ![0, 128] S2048x128
  squeezes_S1x2048x256_S2048x256 : S1x2048x256.Squeezes S2048x256
  h_S512x256 : 0 < S512x256.numel
  shapeCasts_S512x256_S512x256 : S512x256.ShapeCasts S512x256
  inb_S256x384_S256x128_0_0 : ∀ a, (![0, 0] : Fin 2 → Nat) a + S256x128.size a ≤ S256x384.size a
  h_S256x128 : 0 < S256x128.numel
  shapeCasts_S256x128_S256x128 : S256x128.ShapeCasts S256x128
  inb_S384_S128_0 : ∀ a, (![0] : Fin 1 → Nat) a + S128.size a ≤ S384.size a
  h_S128 : 0 < S128.numel
  shapeCasts_S128_S128 : S128.ShapeCasts S128
  shapeCasts_S128_S1x128 : S128.ShapeCasts S1x128
  broadcasts_S1x128_S512x128 : S1x128.Broadcasts S512x128
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reduces_S512x128_S512 : S512x128.Reduces [1] S512
  broadcasts_S512x1_S512x128 : S512x1.Broadcasts S512x128
  h_S512x128 : 0 < S512x128.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  gather_S8x4096x256_S8x2048x1_S8x2048x256_2_1_0_0_1_2_11256_wf : GatherDims.WF S8x4096x256 S8x2048x1 S8x2048x256 [2] [1] [0] [1] [0] 2 ![1, 1, 256]
  dot_S2048x256_S256x256_S2048x256_1_0_0_1_n_n_wf : DotDims.WF S2048x256 S256x256 S2048x256 [1] [0] [0] [1] [] []
  dot_S512x256_S256x128_S512x128_1_0_0_1_n_n_wf : DotDims.WF S512x256 S256x128 S512x128 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S2048x256.size a
  k0_off2_inb : ∀ i : grid0.Coords, ∀ a, (k0_off2 i) a + S512x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S8x2048x128.size a
  hwx0_3 : ∀ i : grid0.Coords, EltTy.bits .f32 = 32 ∨ (Rect.block (s := S8x2048x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def gather_S8x4096x256_S8x2048x1_S8x2048x256_2_1_0_0_1_2_11256 : GatherDims S8x4096x256 S8x2048x1 S8x2048x256 where
  offsetDims := [2]
  collapsedSliceDims := [1]
  operandBatchingDims := [0]
  startIndicesBatchingDims := [0]
  startIndexMap := [1]
  indexVectorDim := 2
  sliceSizes := ![1, 1, 256]
  wf := gather_S8x4096x256_S8x2048x1_S8x2048x256_2_1_0_0_1_2_11256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v1) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x2048 : Shape := ⟨2, ![8, 2048]⟩
abbrev S256x128 : Shape := ⟨2, ![256, 128]⟩
abbrev S128 : Shape := ⟨1, ![128]⟩
abbrev S8x2048x1 : Shape := ⟨3, ![8, 2048, 1]⟩
abbrev S_ : Shape := ⟨0, ![]⟩
abbrev S1 : Shape := ⟨1, ![1]⟩
abbrev S1x1x1 : Shape := ⟨3, ![1, 1, 1]⟩
abbrev S8x2048x256 : Shape := ⟨3, ![8, 2048, 256]⟩
abbrev S8x2048x128 : Shape := ⟨3, ![8, 2048, 128]⟩
abbrev S1x1x128 : Shape := ⟨3, ![1, 1, 128]⟩
abbrev S8x2048x2048 : Shape := ⟨3, ![8, 2048, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x2048, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S8x2048x1, .i32⟩
  | .hbm, ⟨9, _⟩ => ⟨S_, .i32⟩
  | .hbm, ⟨10, _⟩ => ⟨S8x2048x1, .i32⟩
  | .hbm, ⟨11, _⟩ => ⟨S8x2048x1, .i1⟩
  | .hbm, ⟨12, _⟩ => ⟨S_, .i32⟩
  | .hbm, ⟨13, _⟩ => ⟨S8x2048x1, .i32⟩
  | .hbm, ⟨14, _⟩ => ⟨S8x2048x1, .i32⟩
  | .hbm, ⟨15, _⟩ => ⟨S8x2048x1, .i32⟩
  | .hbm, ⟨16, _⟩ => ⟨S1, .i32⟩
  | .hbm, ⟨17, _⟩ => ⟨S_, .i32⟩
  | .hbm, ⟨18, _⟩ => ⟨S8x2048x1, .i32⟩
  | .hbm, ⟨19, _⟩ => ⟨S8x2048x1, .i1⟩
  | .hbm, ⟨20, _⟩ => ⟨S1x1x1, .i32⟩
  | .hbm, ⟨21, _⟩ => ⟨S8x2048x1, .i32⟩
  | .hbm, ⟨22, _⟩ => ⟨S8x2048x1, .i1⟩
  | .hbm, ⟨23, _⟩ => ⟨S8x2048x1, .i1⟩
  | .hbm, ⟨24, _⟩ => ⟨S_, .i1⟩
  | .hbm, ⟨25, _⟩ => ⟨S8x2048, .i1⟩
  | .hbm, ⟨26, _⟩ => ⟨S8x2048x256, .f32⟩
  | .hbm, ⟨27, _⟩ => ⟨S8x2048x256, .i1⟩
  | .hbm, ⟨28, _⟩ => ⟨S_, .f32⟩
  | .hbm, ⟨29, _⟩ => ⟨S8x2048x256, .f32⟩
  | .hbm, ⟨30, _⟩ => ⟨S8x2048x256, .f32⟩
  | .hbm, ⟨31, _⟩ => ⟨S8x2048x128, .f32⟩
  | .hbm, ⟨32, _⟩ => ⟨S1x1x128, .f32⟩
  | .hbm, ⟨33, _⟩ => ⟨S8x2048x128, .f32⟩
  | .hbm, ⟨34, _⟩ => ⟨S8x2048x128, .f32⟩
  | .hbm, ⟨35, _⟩ => ⟨S8x2048x128, .f32⟩
  | .hbm, ⟨36, _⟩ => ⟨S1x1x128, .f32⟩
  | .hbm, ⟨37, _⟩ => ⟨S8x2048x128, .f32⟩
  | .hbm, ⟨38, _⟩ => ⟨S8x2048x128, .f32⟩
  | .hbm, ⟨39, _⟩ => ⟨S8x2048x128, .f32⟩
  | .hbm, ⟨40, _⟩ => ⟨S1x1x128, .f32⟩
  | .hbm, ⟨41, _⟩ => ⟨S8x2048x128, .f32⟩
  | .hbm, ⟨42, _⟩ => ⟨S8x2048x128, .f32⟩
  | .hbm, ⟨43, _⟩ => ⟨S_, .f32⟩
  | .hbm, ⟨44, _⟩ => ⟨S8x2048x128, .f32⟩
  | .hbm, ⟨45, _⟩ => ⟨S8x2048x128, .f32⟩
  | .hbm, ⟨46, _⟩ => ⟨S8x2048x2048, .f32⟩
  | .hbm, ⟨47, _⟩ => ⟨S_, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S8x2048x128, .f32⟩
  | .hbm, ⟨66, _⟩ => ⟨S8x2048x128, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x2048x1, .f32⟩
  | .hbm, ⟨74, _⟩ => ⟨S8x2048x128, .f32⟩
  | .hbm, ⟨75, _⟩ => ⟨S8x2048x128, .f32⟩
  | .hbm, ⟨76, _⟩ => ⟨S8x2048x128, .f32⟩
  | .hbm, ⟨77, _⟩ => ⟨S8x2048x128, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x128, .f32⟩
  | .hbm, ⟨86, _⟩ => ⟨S8x2048x128, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_call1_cst : Ref sig .tc := ⟨.hbm, 43, rfl⟩
abbrev main_call1_v0 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_0 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_2 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_cst_4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_cst_6 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x256_0_1 : S8x2048.BroadcastsInDim S8x2048x256 (![0, 1] : Fin 2 → Fin S8x2048x256.rank)
  bcast_S_S8x2048x256 : S_.BroadcastsInDim S8x2048x256 (![] : Fin 0 → Fin S8x2048x256.rank)
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  reducesTo_S8x2048x128_S8x2048_d2 : S8x2048x128.ReducesTo [2] S8x2048
  bcast_S8x2048x1_S8x2048x128_0_1_2 : S8x2048x1.BroadcastsInDim S8x2048x128 (![0, 1, 2] : Fin 3 → Fin S8x2048x128.rank)
  gather_S8x4096x256_S8x2048x1_S8x2048x256_2_1_0_0_1_2_11256_wf : GatherDims.WF S8x4096x256 S8x2048x1 S8x2048x256 [2] [1] [0] [1] [0] 2 ![1, 1, 256]
  dot_S8x2048x256_S256x128_S8x2048x128_2_0_01_1_n_n_wf : DotDims.WF S8x2048x256 S256x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def gather_S8x4096x256_S8x2048x1_S8x2048x256_2_1_0_0_1_2_11256 : GatherDims S8x4096x256 S8x2048x1 S8x2048x256 where
  offsetDims := [2]
  collapsedSliceDims := [1]
  operandBatchingDims := [0]
  startIndicesBatchingDims := [0]
  startIndexMap := [1]
  indexVectorDim := 2
  sliceSizes := ![1, 1, 256]
  wf := gather_S8x4096x256_S8x2048x1_S8x2048x256_2_1_0_0_1_2_11256_wf
def dot_S8x2048x256_S256x128_S8x2048x128_2_0_01_1_n_n : DotDims S8x2048x256 S256x128 S8x2048x128 where
  lhsContracting := [2]
  rhsContracting := [0]
  lhsNonContracting := [0, 1]
  rhsNonContracting := [1]
  lhsBatch := []
  rhsBatch := []
  wf := dot_S8x2048x256_S256x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.K.Kit.lean ====
/-
  The launch side of the kernel's run, for any float instance.
  @main is three stretches of host operations (the index broadcast; the gather of rows of the first argument with its
  index wrap and range mask; the two concatenations of the three weight matrices and the three bias vectors) followed by
  the one region. `V` is what every buffer holds when the region is entered; the eight argument arrays are written by no
  host operation, so `V` has them as they were. Each of the three input windows (the gathered rows, the concatenated
  weights, the concatenated biases) is found in its staging buffer at its block of `V`, at every grid point.
  The grid is 8 x 4: the first coordinate is the batch, the second the tile of 512 query rows; the body's one branch
  (rebuild the key and value projections of the whole batch into the two scratch buffers) is taken exactly at the
  points whose second coordinate is zero, that is, at the points t with t % 4 = 0.
-/
import proofs.«126917_j10161892623138_2_alg».proof.Proof.Gen.Kernel.Launch
import proofs.«126917_j10161892623138_2_alg».proof.Proof.Gen.Kernel.Skeleton
import proofs.«126917_j10161892623138_2_alg».proof.Proof.Gen.Kernel.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨hostOps0_fresh, hostOps0_1_fresh, hostOps0_2_fresh⟩
    (fun c => (main_chain c).trans rfl)

/-- No host operation before the region writes argument 0: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 1: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 2: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 3: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 4: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 5: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 6: the region finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 7: the region finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- None of the eight argument arrays is an array of a window, so each ends as the region found it, which is as it started. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch -/

/-- The condition of the body's one branch, from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds at the points t with t % 4 = 0: the first query tile of each batch. -/
theorem hcond0 : ∀ t : Fin cfg0.N, cond0 (grid0.coords t) ↔ t.val % 4 = 0 :=
  (by decide +kernel : ∀ t : Fin grid0.N, cond0 (grid0.coords t) ↔ t.val % 4 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

/-- Each window's current staging memref at point `t`, as the pipeline passes it, and its wholeness. -/
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The two scratch buffers: the key projection and the value projection of the current batch. -/
abbrev scK : Memref sig .tc .vmem S2048x128 .f32 := Memref.whole cc0_scratch0
abbrev scV : Memref sig .tc .vmem S2048x128 .f32 := Memref.whole cc0_scratch1

/-- The region's invariant when nothing is said of the scratch: both scratch buffers owned at some contents, and the generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.Kernel.Frm

end
-- ==== Proof.K.RunA.lean ====
/-
  The body at a point where the branch is taken (the first query tile of a batch), on any whole staging memrefs.
  Given the three input buffers at contents x0 (the batch's gathered rows), x1 (the concatenated weights) and x2 (the
  concatenated biases), and the two output buffers and the two scratch buffers at anything, the body runs to the end
  without a fault, leaves the inputs as they were, and leaves in each output buffer and each scratch buffer the
  pieces its stores wrote: the key projection and the value projection of the whole batch in the two scratch buffers,
  the tile of attention weights and the tile of normalised outputs in the two output buffers. The pieces are found
  by running the body symbolically; each is a named pure function of the values the body loaded.
-/
import proofs.«126917_j10161892623138_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i)
    (x0 : Vec F S1x2048x256 .f32) (x1 : Vec F S256x384 .f32) (x2 : Vec F S384 .f32) :
    Σ' (L3 : List (View.Piece (Elt F) S1x512x128 .f32)) (L4 : List (View.Piece (Elt F) S1x512x2048 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Frm

end
-- ==== Proof.K.RunB.lean ====
/-
  The body at a point where the branch is not taken (a later query tile of the batch), on any whole staging memrefs.
  The two scratch buffers are now read only: given them at contents xs0 (the key projection) and xs1 (the value
  projection) and the inputs at x0, x1, x2, the body runs to the end without a fault, leaves the inputs and both
  scratch buffers as they were, and leaves in the two output buffers the pieces its stores wrote.
-/
import proofs.«126917_j10161892623138_2_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i)
    (x0 : Vec F S1x2048x256 .f32) (x1 : Vec F S256x384 .f32) (x2 : Vec F S384 .f32) (xs0 : Vec F S2048x128 .f32) (xs1 : Vec F S2048x128 .f32) :
    Σ' (L3 : List (View.Piece (Elt F) S1x512x128 .f32)), { L4 : List (View.Piece (Elt F) S1x512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _; isplitr; · ipureintro; exact harg7.read_unread _
      iexact HS0
    iexists _; isplitr; · ipureintro; exact harg8.read_unread _
    iexact HS1

end Cert.Kernel.Frm

end
-- ==== Proof.K.Data.lean ====
/-
  What the two output staging buffers and the two scratch buffers hold after the body at each grid point, and the
  data of the region's run built from it.
  At a point where the branch is taken (t % 4 = 0) all four are what that case's stores wrote, as functions of the
  point's three input blocks. At any other point the two scratch buffers are what the point before left in them (the
  key and value projections of the batch, built at the batch's first tile and carried through its other three), and the
  two output buffers are what the stores wrote given the input blocks and those carried contents. So the contents after
  point n are defined by recursion on n.
  The region's invariant before point n: before the first point nothing is said of the scratch; afterwards the two
  scratch buffers are owned at what point n - 1 left in them.
-/
import proofs.«126917_j10161892623138_2_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The views contents are stated through -/

abbrev VO3 : View sig .tc .vmem S1x512x128 .f32 := (Memref.whole cc0_stg3_0 : Memref sig .tc .vmem S1x512x128 .f32).view
abbrev VO4 : View sig .tc .vmem S1x512x2048 .f32 := (Memref.whole cc0_stg4_0 : Memref sig .tc .vmem S1x512x2048 .f32).view
abbrev VS0 : View sig .tc .vmem S2048x128 .f32 := scK.view
abbrev VS1 : View sig .tc .vmem S2048x128 .f32 := scV.view

/-! ## The branch taken: each buffer's pieces cover it -/

theorem coverA_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S1x512x128.Idx) : ∃ pc ∈ (kernelRunA c i arg2 harg2 arg3 harg3 arg4 harg4 arg5 harg5 arg6 harg6 arg7 harg7 arg8 harg8 hc0 x0 x1 x2).1, y ∈ pc.1.set :=
  View.cover_of_tiledL (kernelRunA c i arg2 harg2 arg3 harg3 arg4 harg4 arg5 harg5 arg6 harg6 arg7 harg7 arg8 harg8 hc0 x0 x1 x2).1 S1x512x128.size (by sl_kernel_rfl) y
theorem coverA_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S1x512x2048.Idx) : ∃ pc ∈ (kernelRunA c i arg2 harg2 arg3 harg3 arg4 harg4 arg5 harg5 arg6 harg6 arg7 harg7 arg8 harg8 hc0 x0 x1 x2).2.1, y ∈ pc.1.set :=
  View.cover_of_tiledL (kernelRunA c i arg2 harg2 arg3 harg3 arg4 harg4 arg5 harg5 arg6 harg6 arg7 harg7 arg8 harg8 hc0 x0 x1 x2).2.1 S1x512x2048.size (by sl_kernel_rfl) y
theorem scoverA_0 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S2048x128.Idx) : ∃ pc ∈ (kernelRunA c i arg2 harg2 arg3 harg3 arg4 harg4 arg5 harg5 arg6 harg6 arg7 harg7 arg8 harg8 hc0 x0 x1 x2).2.2.1, y ∈ pc.1.set :=
  View.cover_of_tiledL (kernelRunA c i arg2 harg2 arg3 harg3 arg4 harg4 arg5 harg5 arg6 harg6 arg7 harg7 arg8 harg8 hc0 x0 x1 x2).2.2.1 S2048x128.size (by sl_kernel_rfl) y
theorem scoverA_1 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S2048x128.Idx) : ∃ pc ∈ (kernelRunA c i arg2 harg2 arg3 harg3 arg4 harg4 arg5 harg5 arg6 harg6 arg7 harg7 arg8 harg8 hc0 x0 x1 x2).2.2.2.1, y ∈ pc.1.set :=
  View.cover_of_tiledL (kernelRunA c i arg2 harg2 arg3 harg3 arg4 harg4 arg5 harg5 arg6 harg6 arg7 harg7 arg8 harg8 hc0 x0 x1 x2).2.2.2.1 S2048x128.size (by sl_kernel_rfl) y

/-- What the case leaves in the output buffer of normalised rows, in the output buffer of attention weights, and in the two scratch buffers. -/
def outA_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S1x512x128 .f32 := VO3.read (Elt F) (VO3.writes (Elt F) VO3.junk (kernelRunA c i arg2 harg2 arg3 harg3 arg4 harg4 arg5 harg5 arg6 harg6 arg7 harg7 arg8 harg8 hc0 x0 x1 x2).1)
def outA_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S1x512x2048 .f32 := VO4.read (Elt F) (VO4.writes (Elt F) VO4.junk (kernelRunA c i arg2 harg2 arg3 harg3 arg4 harg4 arg5 harg5 arg6 harg6 arg7 harg7 arg8 harg8 hc0 x0 x1 x2).2.1)
def soutA_0 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S2048x128 .f32 := VS0.read (Elt F) (VS0.writes (Elt F) VS0.junk (kernelRunA c i arg2 harg2 arg3 harg3 arg4 harg4 arg5 harg5 arg6 harg6 arg7 harg7 arg8 harg8 hc0 x0 x1 x2).2.2.1)
def soutA_1 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S2048x128 .f32 := VS1.read (Elt F) (VS1.writes (Elt F) VS1.junk (kernelRunA c i arg2 harg2 arg3 harg3 arg4 harg4 arg5 harg5 arg6 harg6 arg7 harg7 arg8 harg8 hc0 x0 x1 x2).2.2.2.1)

/-! ## The branch not taken -/

theorem coverB_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) (y : S1x512x128.Idx) : ∃ pc ∈ (kernelRunB c i arg2 harg2 arg3 harg3 arg4 harg4 arg5 harg5 arg6 harg6 arg7 harg7 arg8 harg8 hc0 x0 x1 x2 xs0 xs1).1, y ∈ pc.1.set :=
  View.cover_of_tiledL (kernelRunB c i arg2 harg2 arg3 harg3 arg4 harg4 arg5 harg5 arg6 harg6 arg7 harg7 arg8 harg8 hc0 x0 x1 x2 xs0 xs1).1 S1x512x128.size (by sl_kernel_rfl) y
theorem coverB_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) (y : S1x512x2048.Idx) : ∃ pc ∈ (kernelRunB c i arg2 harg2 arg3 harg3 arg4 harg4 arg5 harg5 arg6 harg6 arg7 harg7 arg8 harg8 hc0 x0 x1 x2 xs0 xs1).2.1, y ∈ pc.1.set :=
  View.cover_of_tiledL (kernelRunB c i arg2 harg2 arg3 harg3 arg4 harg4 arg5 harg5 arg6 harg6 arg7 harg7 arg8 harg8 hc0 x0 x1 x2 xs0 xs1).2.1 S1x512x2048.size (by sl_kernel_rfl) y

def outB_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : Vec F S1x512x128 .f32 := VO3.read (Elt F) (VO3.writes (Elt F) VO3.junk (kernelRunB c i arg2 harg2 arg3 harg3 arg4 harg4 arg5 harg5 arg6 harg6 arg7 harg7 arg8 harg8 hc0 x0 x1 x2 xs0 xs1).1)
def outB_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : Vec F S1x512x2048 .f32 := VO4.read (Elt F) (VO4.writes (Elt F) VO4.junk (kernelRunB c i arg2 harg2 arg3 harg3 arg4 harg4 arg5 harg5 arg6 harg6 arg7 harg7 arg8 harg8 hc0 x0 x1 x2 xs0 xs1).2.1)

/-! ## The contents after each point -/

/-- The normalised-rows buffer, the attention-weights buffer, the key scratch and the value scratch. -/
abbrev Outs (F : FTy → Type) [FloatOps F] : Type :=
  Vec F S1x512x128 .f32 × Vec F S1x512x2048 .f32 × Vec F S2048x128 .f32 × Vec F S2048x128 .f32

/-- After a point where the branch is taken: everything from the point's input blocks. -/
def ptA (c : Dev nD) (t : Fin cfg0.N) (h : cond0 (grid0.coords t)) : Outs F :=
  (outA_3 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   outA_4 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   soutA_0 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   soutA_1 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t))

/-- After a point where it is not: the outputs from the input blocks and the carried scratch contents, the scratch unchanged. -/
def ptB (c : Dev nD) (t : Fin cfg0.N) (h : ¬cond0 (grid0.coords t)) (xs0 xs1 : Vec F S2048x128 .f32) : Outs F :=
  (outB_3 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t) xs0 xs1,
   outB_4 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t) xs0 xs1,
   xs0, xs1)

/-- The contents after the body at position `n`, by recursion on `n`. -/
def outsAt0 (c : Dev nD) : (n : ℕ) → n < cfg0.N → Outs F
  | 0, hn => ptA m c ⟨0, hn⟩ ((hcond0 ⟨0, hn⟩).mpr (Nat.zero_mod _))
  | n + 1, hn =>
    if h0 : (n + 1) % 4 = 0 then ptA m c ⟨n + 1, hn⟩ ((hcond0 ⟨n + 1, hn⟩).mpr h0)
    else ptB m c ⟨n + 1, hn⟩ (fun h => h0 ((hcond0 ⟨n + 1, hn⟩).mp h))
      (outsAt0 c n (Nat.lt_of_succ_lt hn)).2.2.1 (outsAt0 c n (Nat.lt_of_succ_lt hn)).2.2.2

theorem outsAt0_A (c : Dev nD) (t : Fin cfg0.N) (h0 : t.val % 4 = 0) :
    outsAt0 m c t.val t.isLt = ptA m c t ((hcond0 t).mpr h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = ptB m c t (fun h => h0 ((hcond0 t).mp h))
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-! ## The region's invariant -/

def PhiS (c : Dev nD) : (n : ℕ) → n ≤ cfg0.N → sProp 𝕄
  | 0, _ => Pipeline.ΦA spec0 c
  | n + 1, hn => iprop(iprop(owns (c : Thread nD τ) scK fullShare ((outsAt0 m c n hn).2.2.1) ∗ owns (c : Thread nD τ) scV fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((outsAt0 m c n hn).2.2.1) ∗ owns (c : Thread nD τ) scV fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scK fullShare ((outsAt0 m c (n - 1) (by omega)).2.2.1) ∗ owns (c : Thread nD τ) scV fullShare ((outsAt0 m c (n - 1) (by omega)).2.2.2)) ∗ (∃ r, prngReg c r)) := by
  cases n with
  | zero => exact absurd rfl hz
  | succ n => rfl

/-! ## The data of the region's run -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Frm

end
-- ==== Proof.K.Body.lean ====
/-
  The body at every grid point meets what the region's data says of it, hence the region's run and the frame.
  At a point t the body is handed: the invariant before t, each input's staging buffer at the input's block, each
  output's staging buffer at anything. If t % 4 = 0 the branch is taken: the scratch buffers may hold anything (at the
  very first point) or what the previous batch left (later), and either way the body overwrites both whole, so the run
  of that case applies. Otherwise t is not the first point, the invariant has the scratch buffers at what point t - 1
  left, and the other case's run applies, handing them back unchanged. Either way every buffer ends at the contents
  defined for point t.
-/
import proofs.«126917_j10161892623138_2_alg».proof.Proof.K.Data

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 32 := lt_of_lt_of_eq t.isLt (show cfg0.N = 32 from N_0)
  by_cases h0 : t.val % 4 = 0
  · rw [outsAt0_A m c t h0]
    unfold ptA outA_3 outA_4 soutA_0 soutA_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _)
      unfold owns; iexists _; isplitr
      swap; · iexact H4
      ipureintro; exact View.read_writes_of_cover _ _ _ _ _ (coverA_4 c _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _)
      unfold owns; iexists _; isplitr
      swap; · iexact H4
      ipureintro; exact View.read_writes_of_cover _ _ _ _ _ (coverA_4 c _ _ _ _ _ _ _ _ _ _ _ _ _ _ _ _ _ _ _)
  · have hz : t.val ≠ 0 := fun h => h0 (by rw [h])
    rw [outsAt0_B m c t h0]
    unfold ptB outB_3 outB_4; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRunB c (grid0.coords t) _ _ _ _ _ _ _ _ _ _ _ _ _ _ (fun h => h0 ((hcond0 t).mp h)) (iblk m c 0 t) (iblk m c 1 t) (iblk m c 2 t) _ _).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB_3 c _ _ _ _ _ _ _ _ _ _ _ _ _ _ _ _ _ _ _ _ _)
    unfold owns; iexists _; isplitr
    swap; · iexact H4
    ipureintro; exact View.read_writes_of_cover _ _ _ _ _ (coverB_4 c _ _ _ _ _ _ _ _ _ _ _ _ _ _ _ _ _ _ _ _ _)

/-- The body's obligation, at every point. -/
theorem body_obligation (c : Dev nD) : BodyObligation (dats (F := F) m 0 c) (defs₀ (F := F)) Variants.none () Set.univ := fun t => by
  rw [bigSep_W0, bigSep_W0]
  exact sound_body m c t

/-- Before the first point nothing is said of the scratch. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- Every weakly fair execution of @main terminates without a fault; at the end each window's array is what the data
    computes (an output: the region-entry contents overwritten by what each point wrote back) and every other unscoped
    buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and the eight argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Frm

end
-- ==== Proof.KI.Kit.lean ====
/-
  The launch side of the kernel's run, for any float instance.
  @main is three stretches of host operations (the index broadcast; the gather of rows of the first argument with its
  index wrap and range mask; the two concatenations of the three weight matrices and the three bias vectors) followed by
  the one region. `V` is what every buffer holds when the region is entered; the eight argument arrays are written by no
  host operation, so `V` has them as they were. Each of the three input windows (the gathered rows, the concatenated
  weights, the concatenated biases) is found in its staging buffer at its block of `V`, at every grid point.
  The grid is 8 x 4: the first coordinate is the batch, the second the tile of 512 query rows; the body's one branch
  (rebuild the key and value projections of the whole batch into the two scratch buffers) is taken exactly at the
  points whose second coordinate is zero, that is, at the points t with t % 4 = 0.
-/
import proofs.«126917_j10161892623138_2_alg».proof.Proof.Gen.KernelIdeal.Launch
import proofs.«126917_j10161892623138_2_alg».proof.Proof.Gen.KernelIdeal.Skeleton
import proofs.«126917_j10161892623138_2_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨hostOps0_fresh, hostOps0_1_fresh, hostOps0_2_fresh⟩
    (fun c => (main_chain c).trans rfl)

/-- No host operation before the region writes argument 0: the region finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 1: the region finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 2: the region finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 3: the region finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 4: the region finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 5: the region finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 6: the region finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))
/-- No host operation before the region writes argument 7: the region finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- None of the eight argument arrays is an array of a window, so each ends as the region found it, which is as it started. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch -/

/-- The condition of the body's one branch, from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds at the points t with t % 4 = 0: the first query tile of each batch. -/
theorem hcond0 : ∀ t : Fin cfg0.N, cond0 (grid0.coords t) ↔ t.val % 4 = 0 :=
  (by decide +kernel : ∀ t : Fin grid0.N, cond0 (grid0.coords t) ↔ t.val % 4 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

/-- Each window's current staging memref at point `t`, as the pipeline passes it, and its wholeness. -/
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The two scratch buffers: the key projection and the value projection of the current batch. -/
abbrev scK : Memref sig .tc .vmem S2048x128 .f32 := Memref.whole cc0_scratch0
abbrev scV : Memref sig .tc .vmem S2048x128 .f32 := Memref.whole cc0_scratch1

/-- The region's invariant when nothing is said of the scratch: both scratch buffers owned at some contents, and the generator register at some state. -/
theorem PhiA0_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.KernelIdeal.Frm

end
-- ==== Proof.KI.RunA.lean ====
/-
  The body at a point where the branch is taken (the first query tile of a batch), on any whole staging memrefs.
  Given the three input buffers at contents x0 (the batch's gathered rows), x1 (the concatenated weights) and x2 (the
  concatenated biases), and the two output buffers and the two scratch buffers at anything, the body runs to the end
  without a fault, leaves the inputs as they were, and leaves in each output buffer and each scratch buffer the
  pieces its stores wrote: the key projection and the value projection of the whole batch in the two scratch buffers,
  the tile of attention weights and the tile of normalised outputs in the two output buffers. The pieces are found
  by running the body symbolically; each is a named pure function of the values the body loaded.
-/
import proofs.«126917_j10161892623138_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i)
    (x0 : Vec F S1x2048x256 .f32) (x1 : Vec F S256x384 .f32) (x2 : Vec F S384 .f32) :
    Σ' (L3 : List (View.Piece (Elt F) S1x512x128 .f32)) (L4 : List (View.Piece (Elt F) S1x512x2048 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Frm

end
-- ==== Proof.KI.RunB.lean ====
/-
  The body at a point where the branch is not taken (a later query tile of the batch), on any whole staging memrefs.
  The two scratch buffers are now read only: given them at contents xs0 (the key projection) and xs1 (the value
  projection) and the inputs at x0, x1, x2, the body runs to the end without a fault, leaves the inputs and both
  scratch buffers as they were, and leaves in the two output buffers the pieces its stores wrote.
-/
import proofs.«126917_j10161892623138_2_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i)
    (x0 : Vec F S1x2048x256 .f32) (x1 : Vec F S256x384 .f32) (x2 : Vec F S384 .f32) (xs0 : Vec F S2048x128 .f32) (xs1 : Vec F S2048x128 .f32) :
    Σ' (L3 : List (View.Piece (Elt F) S1x512x128 .f32)), { L4 : List (View.Piece (Elt F) S1x512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ owns (c : Thread nD τ) arg8 fullShare xs1) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _; isplitr; · ipureintro; exact harg7.read_unread _
      iexact HS0
    iexists _; isplitr; · ipureintro; exact harg8.read_unread _
    iexact HS1

end Cert.KernelIdeal.Frm

end
-- ==== Proof.KI.Data.lean ====
/-
  What the two output staging buffers and the two scratch buffers hold after the body at each grid point, and the
  data of the region's run built from it.
  At a point where the branch is taken (t % 4 = 0) all four are what that case's stores wrote, as functions of the
  point's three input blocks. At any other point the two scratch buffers are what the point before left in them (the
  key and value projections of the batch, built at the batch's first tile and carried through its other three), and the
  two output buffers are what the stores wrote given the input blocks and those carried contents. So the contents after
  point n are defined by recursion on n.
  The region's invariant before point n: before the first point nothing is said of the scratch; afterwards the two
  scratch buffers are owned at what point n - 1 left in them.
-/
import proofs.«126917_j10161892623138_2_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The views contents are stated through -/

abbrev VO3 : View sig .tc .vmem S1x512x128 .f32 := (Memref.whole cc0_stg3_0 : Memref sig .tc .vmem S1x512x128 .f32).view
abbrev VO4 : View sig .tc .vmem S1x512x2048 .f32 := (Memref.whole cc0_stg4_0 : Memref sig .tc .vmem S1x512x2048 .f32).view
abbrev VS0 : View sig .tc .vmem S2048x128 .f32 := scK.view
abbrev VS1 : View sig .tc .vmem S2048x128 .f32 := scV.view

/-! ## The branch taken: each buffer's pieces cover it -/

theorem coverA_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S1x512x128.Idx) : ∃ pc ∈ (kernelRunA c i arg2 harg2 arg3 harg3 arg4 harg4 arg5 harg5 arg6 harg6 arg7 harg7 arg8 harg8 hc0 x0 x1 x2).1, y ∈ pc.1.set :=
  View.cover_of_tiledL (kernelRunA c i arg2 harg2 arg3 harg3 arg4 harg4 arg5 harg5 arg6 harg6 arg7 harg7 arg8 harg8 hc0 x0 x1 x2).1 S1x512x128.size (by sl_kernel_rfl) y
theorem coverA_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S1x512x2048.Idx) : ∃ pc ∈ (kernelRunA c i arg2 harg2 arg3 harg3 arg4 harg4 arg5 harg5 arg6 harg6 arg7 harg7 arg8 harg8 hc0 x0 x1 x2).2.1, y ∈ pc.1.set :=
  View.cover_of_tiledL (kernelRunA c i arg2 harg2 arg3 harg3 arg4 harg4 arg5 harg5 arg6 harg6 arg7 harg7 arg8 harg8 hc0 x0 x1 x2).2.1 S1x512x2048.size (by sl_kernel_rfl) y
theorem scoverA_0 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S2048x128.Idx) : ∃ pc ∈ (kernelRunA c i arg2 harg2 arg3 harg3 arg4 harg4 arg5 harg5 arg6 harg6 arg7 harg7 arg8 harg8 hc0 x0 x1 x2).2.2.1, y ∈ pc.1.set :=
  View.cover_of_tiledL (kernelRunA c i arg2 harg2 arg3 harg3 arg4 harg4 arg5 harg5 arg6 harg6 arg7 harg7 arg8 harg8 hc0 x0 x1 x2).2.2.1 S2048x128.size (by sl_kernel_rfl) y
theorem scoverA_1 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) (y : S2048x128.Idx) : ∃ pc ∈ (kernelRunA c i arg2 harg2 arg3 harg3 arg4 harg4 arg5 harg5 arg6 harg6 arg7 harg7 arg8 harg8 hc0 x0 x1 x2).2.2.2.1, y ∈ pc.1.set :=
  View.cover_of_tiledL (kernelRunA c i arg2 harg2 arg3 harg3 arg4 harg4 arg5 harg5 arg6 harg6 arg7 harg7 arg8 harg8 hc0 x0 x1 x2).2.2.2.1 S2048x128.size (by sl_kernel_rfl) y

/-- What the case leaves in the output buffer of normalised rows, in the output buffer of attention weights, and in the two scratch buffers. -/
def outA_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S1x512x128 .f32 := VO3.read (Elt F) (VO3.writes (Elt F) VO3.junk (kernelRunA c i arg2 harg2 arg3 harg3 arg4 harg4 arg5 harg5 arg6 harg6 arg7 harg7 arg8 harg8 hc0 x0 x1 x2).1)
def outA_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S1x512x2048 .f32 := VO4.read (Elt F) (VO4.writes (Elt F) VO4.junk (kernelRunA c i arg2 harg2 arg3 harg3 arg4 harg4 arg5 harg5 arg6 harg6 arg7 harg7 arg8 harg8 hc0 x0 x1 x2).2.1)
def soutA_0 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S2048x128 .f32 := VS0.read (Elt F) (VS0.writes (Elt F) VS0.junk (kernelRunA c i arg2 harg2 arg3 harg3 arg4 harg4 arg5 harg5 arg6 harg6 arg7 harg7 arg8 harg8 hc0 x0 x1 x2).2.2.1)
def soutA_1 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : Vec F S2048x128 .f32 := VS1.read (Elt F) (VS1.writes (Elt F) VS1.junk (kernelRunA c i arg2 harg2 arg3 harg3 arg4 harg4 arg5 harg5 arg6 harg6 arg7 harg7 arg8 harg8 hc0 x0 x1 x2).2.2.2.1)

/-! ## The branch not taken -/

theorem coverB_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) (y : S1x512x128.Idx) : ∃ pc ∈ (kernelRunB c i arg2 harg2 arg3 harg3 arg4 harg4 arg5 harg5 arg6 harg6 arg7 harg7 arg8 harg8 hc0 x0 x1 x2 xs0 xs1).1, y ∈ pc.1.set :=
  View.cover_of_tiledL (kernelRunB c i arg2 harg2 arg3 harg3 arg4 harg4 arg5 harg5 arg6 harg6 arg7 harg7 arg8 harg8 hc0 x0 x1 x2 xs0 xs1).1 S1x512x128.size (by sl_kernel_rfl) y
theorem coverB_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) (y : S1x512x2048.Idx) : ∃ pc ∈ (kernelRunB c i arg2 harg2 arg3 harg3 arg4 harg4 arg5 harg5 arg6 harg6 arg7 harg7 arg8 harg8 hc0 x0 x1 x2 xs0 xs1).2.1, y ∈ pc.1.set :=
  View.cover_of_tiledL (kernelRunB c i arg2 harg2 arg3 harg3 arg4 harg4 arg5 harg5 arg6 harg6 arg7 harg7 arg8 harg8 hc0 x0 x1 x2 xs0 xs1).2.1 S1x512x2048.size (by sl_kernel_rfl) y

def outB_3 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : Vec F S1x512x128 .f32 := VO3.read (Elt F) (VO3.writes (Elt F) VO3.junk (kernelRunB c i arg2 harg2 arg3 harg3 arg4 harg4 arg5 harg5 arg6 harg6 arg7 harg7 arg8 harg8 hc0 x0 x1 x2 xs0 xs1).1)
def outB_4 (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : Vec F S1x512x2048 .f32 := VO4.read (Elt F) (VO4.writes (Elt F) VO4.junk (kernelRunB c i arg2 harg2 arg3 harg3 arg4 harg4 arg5 harg5 arg6 harg6 arg7 harg7 arg8 harg8 hc0 x0 x1 x2 xs0 xs1).2.1)

/-! ## The contents after each point -/

/-- The normalised-rows buffer, the attention-weights buffer, the key scratch and the value scratch. -/
abbrev Outs (F : FTy → Type) [FloatOps F] : Type :=
  Vec F S1x512x128 .f32 × Vec F S1x512x2048 .f32 × Vec F S2048x128 .f32 × Vec F S2048x128 .f32

/-- After a point where the branch is taken: everything from the point's input blocks. -/
def ptA (c : Dev nD) (t : Fin cfg0.N) (h : cond0 (grid0.coords t)) : Outs F :=
  (outA_3 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   outA_4 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   soutA_0 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t),
   soutA_1 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t))

/-- After a point where it is not: the outputs from the input blocks and the carried scratch contents, the scratch unchanged. -/
def ptB (c : Dev nD) (t : Fin cfg0.N) (h : ¬cond0 (grid0.coords t)) (xs0 xs1 : Vec F S2048x128 .f32) : Outs F :=
  (outB_3 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t) xs0 xs1,
   outB_4 c (grid0.coords t) (ms0_0 t) (hs0_0 t) (ms0_1 t) (hs0_1 t) (ms0_2 t) (hs0_2 t) (ms0_3 t) (hs0_3 t) (ms0_4 t) (hs0_4 t) scK (Memref.isWhole_whole _) scV (Memref.isWhole_whole _) h (iblk m c 0 t) (iblk m c 1 t) (iblk m c 2 t) xs0 xs1,
   xs0, xs1)

/-- The contents after the body at position `n`, by recursion on `n`. -/
def outsAt0 (c : Dev nD) : (n : ℕ) → n < cfg0.N → Outs F
  | 0, hn => ptA m c ⟨0, hn⟩ ((hcond0 ⟨0, hn⟩).mpr (Nat.zero_mod _))
  | n + 1, hn =>
    if h0 : (n + 1) % 4 = 0 then ptA m c ⟨n + 1, hn⟩ ((hcond0 ⟨n + 1, hn⟩).mpr h0)
    else ptB m c ⟨n + 1, hn⟩ (fun h => h0 ((hcond0 ⟨n + 1, hn⟩).mp h))
      (outsAt0 c n (Nat.lt_of_succ_lt hn)).2.2.1 (outsAt0 c n (Nat.lt_of_succ_lt hn)).2.2.2

theorem outsAt0_A (c : Dev nD) (t : Fin cfg0.N) (h0 : t.val % 4 = 0) :
    outsAt0 m c t.val t.isLt = ptA m c t ((hcond0 t).mpr h0) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = ptB m c t (fun h => h0 ((hcond0 t).mp h))
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-! ## The region's invariant -/

def PhiS (c : Dev nD) : (n : ℕ) → n ≤ cfg0.N → sProp 𝕄
  | 0, _ => Pipeline.ΦA spec0 c
  | n + 1, hn => iprop(iprop(owns (c : Thread nD τ) scK fullShare ((outsAt0 m c n hn).2.2.1) ∗ owns (c : Thread nD τ) scV fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare ((outsAt0 m c n hn).2.2.1) ∗ owns (c : Thread nD τ) scV fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scK fullShare ((outsAt0 m c (n - 1) (by omega)).2.2.1) ∗ owns (c : Thread nD τ) scV fullShare ((outsAt0 m c (n - 1) (by omega)).2.2.2)) ∗ (∃ r, prngReg c r)) := by
  cases n with
  | zero => exact absurd rfl hz
  | succ n => rfl

/-! ## The data of the region's run -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Frm

end
-- ==== Proof.KI.Body.lean ====
/-
  The body at every grid point meets what the region's data says of it, hence the region's run and the frame.
  At a point t the body is handed: the invariant before t, each input's staging buffer at the input's block, each
  output's staging buffer at anything. If t % 4 = 0 the branch is taken: the scratch buffers may hold anything (at the
  very first point) or what the previous batch left (later), and either way the body overwrites both whole, so the run
  of that case applies. Otherwise t is not the first point, the invariant has the scratch buffers at what point t - 1
  left, and the other case's run applies, handing them back unchanged. Either way every buffer ends at the contents
  defined for point t.
-/
import proofs.«126917_j10161892623138_2_alg».proof.Proof.KI.Data

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 32 := lt_of_lt_of_eq t.isLt (show cfg0.N = 32 from N_0)
  by_cases h0 : t.val % 4 = 0
  · rw [outsAt0_A m c t h0]
    unfold ptA outA_3 outA_4 soutA_0 soutA_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _)
      unfold owns; iexists _; isplitr
      swap; · iexact H4
      ipureintro; exact View.read_writes_of_cover _ _ _ _ _ (coverA_4 c _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 c _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ _ _)
      unfold owns; iexists _; isplitr
      swap; · iexact H4
      ipureintro; exact View.read_writes_of_cover _ _ _ _ _ (coverA_4 c _ _ _ _ _ _ _ _ _ _ _ _ _ _ _ _ _ _ _)
  · have hz : t.val ≠ 0 := fun h => h0 (by rw [h])
    rw [outsAt0_B m c t h0]
    unfold ptB outB_3 outB_4; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRunB c (grid0.coords t) _ _ _ _ _ _ _ _ _ _ _ _ _ _ (fun h => h0 ((hcond0 t).mp h)) (iblk m c 0 t) (iblk m c 1 t) (iblk m c 2 t) _ _).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB_3 c _ _ _ _ _ _ _ _ _ _ _ _ _ _ _ _ _ _ _ _ _)
    unfold owns; iexists _; isplitr
    swap; · iexact H4
    ipureintro; exact View.read_writes_of_cover _ _ _ _ _ (coverB_4 c _ _ _ _ _ _ _ _ _ _ _ _ _ _ _ _ _ _ _ _ _)

/-- The body's obligation, at every point. -/
theorem body_obligation (c : Dev nD) : BodyObligation (dats (F := F) m 0 c) (defs₀ (F := F)) Variants.none () Set.univ := fun t => by
  rw [bigSep_W0, bigSep_W0]
  exact sound_body m c t

/-- Before the first point nothing is said of the scratch. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- Every weakly fair execution of @main terminates without a fault; at the end each window's array is what the data
    computes (an output: the region-entry contents overwritten by what each point wrote back) and every other unscoped
    buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and the eight argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Frm

end
-- ==== Proof.KI.Pieces.lean ====
/-
  What each control case's stores left in the four buffers, as named functions of the buffers' contents.
  The body's loads are reads of the contents at fixed or row-offset rectangles: the key and value columns of the
  concatenated weights and biases, the query columns, the tile's 512 rows of the batch's gathered rows (through the view
  that drops the block's leading unit axis), the tile's 512 rows of the value projection. A scratch buffer read after the
  store that filled it reads what was stored. With these, each store's value is one of four functions: the key projection
  and the value projection of the batch (of the three input blocks), the tile of attention weights (of the input blocks
  and the key projection), the tile of normalised outputs (of the input blocks and both projections).
-/
import proofs.«126917_j10161892623138_2_alg».proof.Proof.KI.Data
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's loads and stores as functions of the buffers' contents -/

/-- The key and value columns of the concatenated weights (columns 128 to 383), and of the concatenated biases. -/
abbrev ldWkv (x1 : Vec F S256x384 .f32) : Vec F S256x256 .f32 := View.ld x1 (Rect.unit ![0, 128] S256x256.size inb_S256x384_S256x256_0_128)
abbrev ldBkv (x2 : Vec F S384 .f32) : Vec F S256 .f32 := View.ld x2 (Rect.unit ![128] S256.size inb_S384_S256_128)
/-- The query columns (0 to 127). -/
abbrev ldWq (x1 : Vec F S256x384 .f32) : Vec F S256x128 .f32 := View.ld x1 (Rect.unit ![0, 0] S256x128.size inb_S256x384_S256x128_0_0)
abbrev ldBq (x2 : Vec F S384 .f32) : Vec F S128 .f32 := View.ld x2 (Rect.unit ![0] S128.size inb_S384_S128_0)
/-- The tile's 512 rows of the batch's gathered rows. -/
abbrev ldRows (i : grid0.Coords) (x0 : Vec F S1x2048x256 .f32) : Vec F S512x256 .f32 :=
  View.ld (shapeCast S2048x256 x0 shapeCasts_S1x2048x256_S2048x256) (Rect.unit (k0_off1 i) S512x256.size (k0_off1_inb i))
/-- The tile's 512 rows of the value projection. -/
abbrev ldVrows (i : grid0.Coords) (v : Vec F S2048x128 .f32) : Vec F S512x128 .f32 :=
  View.ld v (Rect.unit (k0_off2 i) S512x128.size (k0_off2_inb i))

/-- The key projection and the value projection of the batch. -/
def projK (x0 : Vec F S1x2048x256 .f32) (x1 : Vec F S256x384 .f32) (x2 : Vec F S384 .f32) : Vec F S2048x128 .f32 :=
  k0_pay4 x0 (ldWkv x1) (ldBkv x2)
def projV (x0 : Vec F S1x2048x256 .f32) (x1 : Vec F S256x384 .f32) (x2 : Vec F S384 .f32) : Vec F S2048x128 .f32 :=
  k0_pay5 x0 (ldWkv x1) (ldBkv x2)
/-- The tile of attention weights, and the tile of normalised outputs, given the key and value projections. -/
def tileAtt (i : grid0.Coords) (x0 : Vec F S1x2048x256 .f32) (x1 : Vec F S256x384 .f32) (x2 : Vec F S384 .f32) (k : Vec F S2048x128 .f32) : Vec F S1x512x2048 .f32 :=
  k0_pay1 (k0_pay7 (ldRows i x0) (ldWq x1) (ldBq x2) k)
def tileOut (i : grid0.Coords) (x0 : Vec F S1x2048x256 .f32) (x1 : Vec F S256x384 .f32) (x2 : Vec F S384 .f32) (k v : Vec F S2048x128 .f32) : Vec F S1x512x128 .f32 :=
  k0_pay2 (k0_pay6 v) (k0_pay7 (ldRows i x0) (ldWq x1) (ldBq x2) k) (ldVrows i v)

/-- Reading the first input's buffer through the view the body squeezes out of it (drop the leading unit axis) gives its
    contents as a 2048 x 256 matrix. -/
theorem read_rows {arg2 : Memref sig .tc .vmem S1x2048x256 .f32} (harg2 : arg2.IsWhole) (x0 : Vec F S1x2048x256 .f32) {hn} :
    View.read (Elt F) ((arg2.view.slice (Rect.unit ![0, 0, 0] S1x2048x256.size inb_S1x2048x256_S1x2048x256_0_0_0)).reshape S2048x256 hn) (harg2.unread x0)
      = shapeCast S2048x256 x0 shapeCasts_S1x2048x256_S2048x256 := by
  have h := Memref.read_squeeze_slice (Val := Elt F) arg2 (Rect.unit ![0, 0, 0] S1x2048x256.size inb_S1x2048x256_S1x2048x256_0_0_0) (fun _ => rfl)
    squeezes_S1x2048x256_S2048x256 shapeCasts_S1x2048x256_S2048x256 (harg2.unread x0)
  rw [View.readAt_eq_ld, harg2.read_unread, View.ld_unit_zero hz3] at h
  exact h

/-! ## What each case's stores left, as those functions -/

theorem soutA_0_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : soutA_0 c i arg2 harg2 arg3 harg3 arg4 harg4 arg5 harg5 arg6 harg6 arg7 harg7 arg8 harg8 hc0 x0 x1 x2 = projK x0 x1 x2 := by
  unfold soutA_0
  rw [View.read_writes_eq_canon _ _ _ (scoverA_0 c i arg2 harg2 arg3 harg3 arg4 harg4 arg5 harg5 arg6 harg6 arg7 harg7 arg8 harg8 hc0 x0 x1 x2)]
  unfold kernelRunA
  dsimp only
  sl_unfold_words
  rw [View.canon_unit_zero (S := S2048x128) hz2]
  simp only [View.readAt_eq_ld, harg2.read_unread, harg3.read_unread, harg4.read_unread, View.ld_unit_zero (S := S1x2048x256) hz3]
  rfl

theorem soutA_1_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : soutA_1 c i arg2 harg2 arg3 harg3 arg4 harg4 arg5 harg5 arg6 harg6 arg7 harg7 arg8 harg8 hc0 x0 x1 x2 = projV x0 x1 x2 := by
  unfold soutA_1
  rw [View.read_writes_eq_canon _ _ _ (scoverA_1 c i arg2 harg2 arg3 harg3 arg4 harg4 arg5 harg5 arg6 harg6 arg7 harg7 arg8 harg8 hc0 x0 x1 x2)]
  unfold kernelRunA
  dsimp only
  sl_unfold_words
  rw [View.canon_unit_zero (S := S2048x128) hz2]
  simp only [View.readAt_eq_ld, harg2.read_unread, harg3.read_unread, harg4.read_unread, View.ld_unit_zero (S := S1x2048x256) hz3]
  rfl

set_option maxHeartbeats 2000000 in
theorem outA_4_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : outA_4 c i arg2 harg2 arg3 harg3 arg4 harg4 arg5 harg5 arg6 harg6 arg7 harg7 arg8 harg8 hc0 x0 x1 x2 = tileAtt i x0 x1 x2 (projK x0 x1 x2) := by
  unfold outA_4
  rw [View.read_writes_eq_canon _ _ _ (coverA_4 c i arg2 harg2 arg3 harg3 arg4 harg4 arg5 harg5 arg6 harg6 arg7 harg7 arg8 harg8 hc0 x0 x1 x2)]
  unfold kernelRunA
  dsimp only
  sl_unfold_words
  rw [View.canon_unit_zero hz3]
  simp only [View.readCov_unit_zero (S := S2048x128) _ hz2, View.readAt_writes_junk_eq_canon, View.canon_unit_zero (S := S2048x128) hz2]
  simp only [View.readAt_eq_ld, harg2.read_unread, harg3.read_unread, harg4.read_unread, harg7.read_unread, harg8.read_unread, View.ld_unit_zero (S := S1x2048x256) hz3, View.ld_unit_zero (S := S2048x128) hz2, read_rows harg2]
  rfl

set_option maxHeartbeats 2000000 in
theorem outA_3_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : cond0 i) (x0 : Vec F S1x2048x256 .f32) (x1 : Vec F S256x384 .f32) (x2 : Vec F S384 .f32) : outA_3 c i arg2 harg2 arg3 harg3 arg4 harg4 arg5 harg5 arg6 harg6 arg7 harg7 arg8 harg8 hc0 x0 x1 x2 = tileOut i x0 x1 x2 (projK x0 x1 x2) (projV x0 x1 x2) := by
  unfold outA_3
  rw [View.read_writes_eq_canon _ _ _ (coverA_3 c i arg2 harg2 arg3 harg3 arg4 harg4 arg5 harg5 arg6 harg6 arg7 harg7 arg8 harg8 hc0 x0 x1 x2)]
  unfold kernelRunA
  dsimp only
  sl_unfold_words
  rw [View.canon_unit_zero hz3]
  simp only [View.readCov_unit_zero (S := S2048x128) _ hz2, View.readAt_writes_junk_eq_canon, View.canon_unit_zero (S := S2048x128) hz2]
  simp only [View.readAt_eq_ld, harg2.read_unread, harg3.read_unread, harg4.read_unread, harg7.read_unread, harg8.read_unread, View.ld_unit_zero (S := S1x2048x256) hz3, View.ld_unit_zero (S := S2048x128) hz2, read_rows harg2]
  rfl

set_option maxHeartbeats 2000000 in
theorem outB_4_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : outB_4 c i arg2 harg2 arg3 harg3 arg4 harg4 arg5 harg5 arg6 harg6 arg7 harg7 arg8 harg8 hc0 x0 x1 x2 xs0 xs1 = tileAtt i x0 x1 x2 xs0 := by
  unfold outB_4
  rw [View.read_writes_eq_canon _ _ _ (coverB_4 c i arg2 harg2 arg3 harg3 arg4 harg4 arg5 harg5 arg6 harg6 arg7 harg7 arg8 harg8 hc0 x0 x1 x2 xs0 xs1)]
  unfold kernelRunB
  dsimp only
  sl_unfold_words
  rw [View.canon_unit_zero hz3]
  simp only [View.readCov_unit_zero (S := S2048x128) _ hz2, View.readAt_writes_junk_eq_canon, View.canon_unit_zero (S := S2048x128) hz2]
  simp only [View.readAt_eq_ld, harg2.read_unread, harg3.read_unread, harg4.read_unread, harg7.read_unread, harg8.read_unread, View.ld_unit_zero (S := S1x2048x256) hz3, View.ld_unit_zero (S := S2048x128) hz2, read_rows harg2]
  rfl

set_option maxHeartbeats 2000000 in
theorem outB_3_eq (c : Dev nD) (i : grid0.Coords) (arg2 : Memref sig .tc .vmem S1x2048x256 .f32) (harg2 : arg2.IsWhole) (arg3 : Memref sig .tc .vmem S256x384 .f32) (harg3 : arg3.IsWhole) (arg4 : Memref sig .tc .vmem S384 .f32) (harg4 : arg4.IsWhole) (arg5 : Memref sig .tc .vmem S1x512x128 .f32) (harg5 : arg5.IsWhole) (arg6 : Memref sig .tc .vmem S1x512x2048 .f32) (harg6 : arg6.IsWhole) (arg7 : Memref sig .tc .vmem S2048x128 .f32) (harg7 : arg7.IsWhole) (arg8 : Memref sig .tc .vmem S2048x128 .f32) (harg8 : arg8.IsWhole) (hc0 : ¬cond0 i) (x0 : Vec F S1x2048x256 .f32) (x1 : Vec F S256x384 .f32) (x2 : Vec F S384 .f32) (xs0 : Vec F S2048x128 .f32) (xs1 : Vec F S2048x128 .f32) : outB_3 c i arg2 harg2 arg3 harg3 arg4 harg4 arg5 harg5 arg6 harg6 arg7 harg7 arg8 harg8 hc0 x0 x1 x2 xs0 xs1 = tileOut i x0 x1 x2 xs0 xs1 := by
  unfold outB_3
  rw [View.read_writes_eq_canon _ _ _ (coverB_3 c i arg2 harg2 arg3 harg3 arg4 harg4 arg5 harg5 arg6 harg6 arg7 harg7 arg8 harg8 hc0 x0 x1 x2 xs0 xs1)]
  unfold kernelRunB
  dsimp only
  sl_unfold_words
  rw [View.canon_unit_zero hz3]
  simp only [View.readCov_unit_zero (S := S2048x128) _ hz2, View.readAt_writes_junk_eq_canon, View.canon_unit_zero (S := S2048x128) hz2]
  simp only [View.readAt_eq_ld, harg2.read_unread, harg3.read_unread, harg4.read_unread, harg7.read_unread, harg8.read_unread, View.ld_unit_zero (S := S1x2048x256) hz3, View.ld_unit_zero (S := S2048x128) hz2, read_rows harg2]
  rfl

end Cert.KernelIdeal.Frm

end
-- ==== Proof.KI.Closed.lean ====
/-
  The contents after each grid point, in closed form.
  Point t works on batch b = t / 4 and query tile t % 4. The first input's block at t is batch b's 2048 gathered rows;
  the other two inputs' blocks are the whole concatenated weights and the whole concatenated biases, at every point.
  By induction on t: after point t the two scratch buffers hold the key and value projections of batch b (built when
  t % 4 = 0, and carried unchanged through the batch's other three tiles, which have the same b), and the two output
  buffers hold the attention tile and the output tile of (b, t % 4) computed from those.
-/
import proofs.«126917_j10161892623138_2_alg».proof.Proof.KI.Pieces
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The input blocks, read off the arrays as the region finds them -/

/-- Where the three input windows' blocks sit: batch t / 4 of the gathered rows; the whole of the other two arrays. -/
theorem idx_facts0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx_facts1 : ∀ t : Fin cfg0.N, win0_1.index t 0 = 0 ∧ win0_1.index t 1 = 0 :=
  (by decide +kernel : ∀ t : Fin grid0.N, win0_1.index t 0 = 0 ∧ win0_1.index t 1 = 0)
theorem idx_facts2 : ∀ t : Fin cfg0.N, win0_2.index t 0 = 0 :=
  (by decide +kernel : ∀ t : Fin grid0.N, win0_2.index t 0 = 0)

/-- Batch `b`'s 2048 gathered rows, as a block with a leading unit axis. -/
def rowsOf (c : Dev nD) (b : Fin 8) : Vec F S1x2048x256 .f32 :=
  fun y => V m c main_v1 (ix3 b (⟨(y 1).val, (y 1).isLt⟩ : Fin 2048) (⟨(y 2).val, (y 2).isLt⟩ : Fin 256))
/-- The concatenated weights and the concatenated biases. -/
abbrev wcat (c : Dev nD) : Vec F S256x384 .f32 := V m c main_v2
abbrev bcat (c : Dev nD) : Vec F S384 .f32 := V m c main_v3

theorem batch_lt (n : ℕ) (h : n < cfg0.N) : n / 4 < 8 := by
  have hN : cfg0.N = 32 := N_0
  omega

theorem iblk0_eq (c : Dev nD) (t : Fin cfg0.N) :
    (iblk m c 0 t : Vec F S1x2048x256 .f32) = rowsOf m c ⟨t.val / 4, batch_lt t.val t.isLt⟩ := by
  have hi := idx_facts0 t
  funext j
  unfold iblk rowsOf
  rw [View.read_apply]
  show V m c main_v1 _ = V m c main_v1 _
  congr 1
  funext a
  apply Fin.ext
  have h0 : (j 0).val < 1 := (j 0).isLt
  match a with
  | ⟨0, _⟩ => show win0_0.index t 0 * 1 + 1 * (j 0).val = t.val / 4; rw [hi.1]; omega
  | ⟨1, _⟩ => show win0_0.index t 1 * 2048 + 1 * (j 1).val = (j 1).val; rw [hi.2.1]; omega
  | ⟨2, _⟩ => show win0_0.index t 2 * 256 + 1 * (j 2).val = (j 2).val; rw [hi.2.2]; omega

theorem iblk1_eq (c : Dev nD) (t : Fin cfg0.N) : (iblk m c 1 t : Vec F S256x384 .f32) = wcat m c := by
  have hi := idx_facts1 t
  funext j
  unfold iblk
  rw [View.read_apply]
  show V m c main_v2 _ = V m c main_v2 _
  congr 1
  funext a
  apply Fin.ext
  match a with
  | ⟨0, _⟩ => show win0_1.index t 0 * 256 + 1 * (j 0).val = (j 0).val; rw [hi.1]; omega
  | ⟨1, _⟩ => show win0_1.index t 1 * 384 + 1 * (j 1).val = (j 1).val; rw [hi.2]; omega

theorem iblk2_eq (c : Dev nD) (t : Fin cfg0.N) : (iblk m c 2 t : Vec F S384 .f32) = bcat m c := by
  have hi := idx_facts2 t
  funext j
  unfold iblk
  rw [View.read_apply]
  show V m c main_v3 _ = V m c main_v3 _
  congr 1
  funext a
  apply Fin.ext
  match a with
  | ⟨0, _⟩ => show win0_2.index t 0 * 384 + 1 * (j 0).val = (j 0).val; rw [hi]; omega

/-! ## The closed form -/

/-- Batch `b`'s key projection and value projection. -/
def keyOf (c : Dev nD) (b : Fin 8) : Vec F S2048x128 .f32 := projK (rowsOf m c b) (wcat m c) (bcat m c)
def valOf (c : Dev nD) (b : Fin 8) : Vec F S2048x128 .f32 := projV (rowsOf m c b) (wcat m c) (bcat m c)

/-- What the four buffers hold after point `n`. -/
def closed (c : Dev nD) (n : ℕ) (h : n < cfg0.N) : Outs F :=
  (tileOut (grid0.coords ⟨n, h⟩) (rowsOf m c ⟨n / 4, batch_lt n h⟩) (wcat m c) (bcat m c) (keyOf m c ⟨n / 4, batch_lt n h⟩) (valOf m c ⟨n / 4, batch_lt n h⟩),
   tileAtt (grid0.coords ⟨n, h⟩) (rowsOf m c ⟨n / 4, batch_lt n h⟩) (wcat m c) (bcat m c) (keyOf m c ⟨n / 4, batch_lt n h⟩),
   keyOf m c ⟨n / 4, batch_lt n h⟩, valOf m c ⟨n / 4, batch_lt n h⟩)

theorem ptA_eq (c : Dev nD) (t : Fin cfg0.N) (hc : cond0 (grid0.coords t)) : ptA m c t hc = closed m c t.val t.isLt := by
  unfold ptA closed keyOf valOf
  rw [outA_3_eq, outA_4_eq, soutA_0_eq, soutA_1_eq, iblk0_eq, iblk1_eq, iblk2_eq]

theorem outsAt_eq (c : Dev nD) : ∀ (n : ℕ) (h : n < cfg0.N), outsAt0 m c n h = closed m c n h
  | 0, h => (outsAt0_A m c ⟨0, h⟩ rfl).trans (ptA_eq m c ⟨0, h⟩ _)
  | n + 1, h => by
    by_cases h0 : (n + 1) % 4 = 0
    · exact (outsAt0_A m c ⟨n + 1, h⟩ h0).trans (ptA_eq m c ⟨n + 1, h⟩ _)
    · rw [outsAt0_B m c ⟨n + 1, h⟩ h0]
      have hb : (⟨(n + 1 - 1) / 4, batch_lt (n + 1 - 1) (Nat.lt_of_le_of_lt (Nat.sub_le _ _) h)⟩ : Fin 8) = ⟨(n + 1) / 4, batch_lt (n + 1) h⟩ :=
        Fin.ext (by show (n + 1 - 1) / 4 = (n + 1) / 4; omega)
      unfold ptB
      rw [outB_3_eq, outB_4_eq, iblk0_eq, iblk1_eq, iblk2_eq]
      show (_, _, (outsAt0 m c (n + 1 - 1) _).2.2.1, (outsAt0 m c (n + 1 - 1) _).2.2.2) = _
      rw [outsAt_eq c (n + 1 - 1) (Nat.lt_of_le_of_lt (Nat.sub_le _ _) h)]
      unfold closed
      dsimp only
      rw [hb]

end Cert.KernelIdeal.Frm

end
-- ==== Proof.KI.Stages.lean ====
/-
  The body's arithmetic, stage by stage, read at an entry at the ideal instance.
  Each stored value is a composition of a few stages: a matrix product into a zero accumulator plus a bias along each row
  (the projections), the scaled product of the queries with the keys, a row maximum, exponentials, row sums, quotients, the
  product with the values, and a row normalisation. At the ideal instance a change of float format is the identity, a matrix
  product at an entry is the sum over the contracted index of the operands' products, a lane reduction is the sum (or the
  fold of max) along the row, and the keep-dimension casts and broadcasts only move an index.
-/
import proofs.«126917_j10161892623138_2_alg».proof.Proof.KI.Pieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mth

open Cert.KernelIdeal Cert.KernelIdeal.Gen Cert.KernelIdeal.Frm
open Idealize.ShloMosaic Idealize.ShloMosaic.TcCoe Idealize.SL.Sem
open Idealize.ShloMosaic.ValueIdx
open scoped BigOperators

/-! ## Column forms of the keep-dimension cast and broadcast -/

/-- A vector [a] cast to a column [a, 1] reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column [a, 1] broadcast along its rows to [a, b] reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    simp

/-! ## The body's four matrix products, read at an entry -/

theorem mm_kv (lhs : FVec Ideal S2048x256 .bf16) (rhs : FVec Ideal S256x256 .bf16) (r : Fin 2048) (c : Fin 256) :
    matmul dot_S2048x256_S256x256_S2048x256_1_0_0_1_n_n none lhs rhs (constant S2048x256 .f32 0x00000000#32) (ix2 r c) = ∑ k : Fin 256, lhs (ix2 r k) * rhs (ix2 k c) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 r c) ((ValueIdx.contrEquiv1 dot_S2048x256_S256x256_S2048x256_1_0_0_1_n_n 256 rfl rfl).symm k) = ix2 r k := funext fun a => Fin.ext (by
    match a with
    | ⟨0, _⟩ =>
      show (dot_S2048x256_S256x256_S2048x256_1_0_0_1_n_n.lhsIdx (ix2 r c) _ 0).val = r.val
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl
    | ⟨1, _⟩ => exact (dot_S2048x256_S256x256_S2048x256_1_0_0_1_n_n.lhsIdx_val_of_single rfl _ _).trans hk)
  have er : dot_S2048x256_S256x256_S2048x256_1_0_0_1_n_n.rhsIdx (ix2 r c) ((ValueIdx.contrEquiv1 dot_S2048x256_S256x256_S2048x256_1_0_0_1_n_n 256 rfl rfl).symm k) = ix2 k c := funext fun a => Fin.ext (by
    match a with
    | ⟨0, _⟩ => exact (dot_S2048x256_S256x256_S2048x256_1_0_0_1_n_n.rhsIdx_val_of_single rfl _ _).trans hk
    | ⟨1, _⟩ =>
      show (dot_S2048x256_S256x256_S2048x256_1_0_0_1_n_n.rhsIdx (ix2 r c) _ 1).val = c.val
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
  rw [el, er]

theorem mm_q (lhs : FVec Ideal S512x256 .bf16) (rhs : FVec Ideal S256x128 .bf16) (r : Fin 512) (c : Fin 128) :
    matmul dot_S512x256_S256x128_S512x128_1_0_0_1_n_n none lhs rhs (constant S512x128 .f32 0x00000000#32) (ix2 r c) = ∑ k : Fin 256, lhs (ix2 r k) * rhs (ix2 k c) := by
  simp only [matmul]
  rw [Ideal.matmul_constant_zero_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 r c) ((ValueIdx.contrEquiv1 dot_S512x256_S256x128_S512x128_1_0_0_1_n_n 256 rfl rfl).symm k) = ix2 r k := funext fun a => Fin.ext (by
    match a with
    | ⟨0, _⟩ =>
      show (dot_S512x256_S256x128_S512x128_1_0_0_1_n_n.lhsIdx (ix2 r c) _ 0).val = r.val
      unfold DotDims.lhsIdx
      rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
      rfl
    | ⟨1, _⟩ => exact (dot_S512x256_S256x128_S512x128_1_0_0_1_n_n.lhsIdx_val_of_single rfl _ _).trans hk)
  have er : dot_S512x256_S256x128_S512x128_1_0_0_1_n_n.rhsIdx (ix2 r c) ((ValueIdx.contrEquiv1 dot_S512x256_S256x128_S512x128_1_0_0_1_n_n 256 rfl rfl).symm k) = ix2 k c := funext fun a => Fin.ext (by
    match a with
    | ⟨0, _⟩ => exact (dot_S512x256_S256x128_S512x128_1_0_0_1_n_n.rhsIdx_val_of_single rfl _ _).trans hk
    | ⟨1, _⟩ =>
      show (dot_S512x256_S256x128_S512x128_1_0_0_1_n_n.rhsIdx (ix2 r c) _ 1).val = c.val
      unfold DotDims.rhsIdx
      rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
      rfl)
  rw [el, er]

theorem mm_s (lhs : FVec Ideal S512x128 .bf16) (rhs : FVec Ideal S2048x128 .bf16) (r : Fin 512) (c : Fin 2048) :
    matmul dot_S512x128_S2048x128_S512x2048_1_1_0_0_n_n none lhs rhs (constant S512x2048 .f32 0x00000000#32) (ix2 r c) = ∑ k : Fin 128, lhs (ix2 r k) * rhs (ix2 c k) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 r c) ((ValueIdx.contrEquiv1 dot_S512x128_S2048x128_S512x2048_1_1_0_0_n_n 128 rfl rfl).symm k) = ix2 r k := funext fun a => Fin.ext (by
    match a with
    | ⟨0, _⟩ =>
      show (dot_S512x128_S2048x128_S512x2048_1_1_0_0_n_n.lhsIdx (ix2 r c) _ 0).val = r.val
      unfold DotDims.lhsIdx
      rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
      rfl
    | ⟨1, _⟩ => exact (dot_S512x128_S2048x128_S512x2048_1_1_0_0_n_n.lhsIdx_val_of_single rfl _ _).trans hk)
  have er : dot_S512x128_S2048x128_S512x2048_1_1_0_0_n_n.rhsIdx (ix2 r c) ((ValueIdx.contrEquiv1 dot_S512x128_S2048x128_S512x2048_1_1_0_0_n_n 128 rfl rfl).symm k) = ix2 c k := funext fun a => Fin.ext (by
    match a with
    | ⟨1, _⟩ => exact (dot_S512x128_S2048x128_S512x2048_1_1_0_0_n_n.rhsIdx_val_of_single rfl _ _).trans hk
    | ⟨0, _⟩ =>
      show (dot_S512x128_S2048x128_S512x2048_1_1_0_0_n_n.rhsIdx (ix2 r c) _ 0).val = c.val
      unfold DotDims.rhsIdx
      rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
      rfl)
  rw [el, er]

theorem mm_e (lhs : FVec Ideal S512x2048 .bf16) (rhs : FVec Ideal S2048x128 .bf16) (r : Fin 512) (c : Fin 128) :
    matmul dot_S512x2048_S2048x128_S512x128_1_0_0_1_n_n none lhs rhs (constant S512x128 .f32 0x00000000#32) (ix2 r c) = ∑ k : Fin 2048, lhs (ix2 r k) * rhs (ix2 k c) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r c) ((ValueIdx.contrEquiv1 dot_S512x2048_S2048x128_S512x128_1_0_0_1_n_n 2048 rfl rfl).symm k) = ix2 r k := funext fun a => Fin.ext (by
    match a with
    | ⟨0, _⟩ =>
      show (dot_S512x2048_S2048x128_S512x128_1_0_0_1_n_n.lhsIdx (ix2 r c) _ 0).val = r.val
      unfold DotDims.lhsIdx
      rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
      rfl
    | ⟨1, _⟩ => exact (dot_S512x2048_S2048x128_S512x128_1_0_0_1_n_n.lhsIdx_val_of_single rfl _ _).trans hk)
  have er : dot_S512x2048_S2048x128_S512x128_1_0_0_1_n_n.rhsIdx (ix2 r c) ((ValueIdx.contrEquiv1 dot_S512x2048_S2048x128_S512x128_1_0_0_1_n_n 2048 rfl rfl).symm k) = ix2 k c := funext fun a => Fin.ext (by
    match a with
    | ⟨0, _⟩ => exact (dot_S512x2048_S2048x128_S512x128_1_0_0_1_n_n.rhsIdx_val_of_single rfl _ _).trans hk
    | ⟨1, _⟩ =>
      show (dot_S512x2048_S2048x128_S512x128_1_0_0_1_n_n.rhsIdx (ix2 r c) _ 1).val = c.val
      unfold DotDims.rhsIdx
      rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
      rfl)
  rw [el, er]

/-! ## The body's arithmetic as named stages -/

section Stages
variable {F : FTy → Type} [FloatOps F]

/-- The tile's queries: the tile's rows times the query weights, plus the query bias along each row. -/
def qT (v8 : Vec F S512x256 .f32) (v11 : Vec F S256x128 .f32) (v14 : Vec F S128 .f32) : FVec F S512x128 .f32 :=
  addf (matmul dot_S512x256_S256x128_S512x128_1_0_0_1_n_n none (truncf .bf16 (shapeCast S512x256 v8 shapeCasts_S512x256_S512x256) bitsLt_bf16_f32) (truncf .bf16 (shapeCast S256x128 v11 shapeCasts_S256x128_S256x128) bitsLt_bf16_f32) (constant S512x128 .f32 0x00000000#32))
    (broadcastTo S512x128 (shapeCast S1x128 (shapeCast S128 v14 shapeCasts_S128_S128) shapeCasts_S128_S1x128) broadcasts_S1x128_S512x128)
/-- The scaled scores of the tile's queries against all the batch's keys. -/
def sT (q : FVec F S512x128 .f32) (v21 : Vec F S2048x128 .f32) : FVec F S512x2048 .f32 :=
  mulf (matmul dot_S512x128_S2048x128_S512x2048_1_1_0_0_n_n none (truncf .bf16 q bitsLt_bf16_f32) (truncf .bf16 v21 bitsLt_bf16_f32) (constant S512x2048 .f32 0x00000000#32))
    (broadcast S512x2048 (Scalar.ofBits .f32 0x3D800000#32))
/-- Each row's largest score. -/
def mxT (s : FVec F S512x2048 .f32) : FVec F S512 .f32 :=
  multiReduction .maximumf [1] S512 s 0xFF800000#32 reduces_S512x2048_S512 (.inl rfl) rfl
/-- The exponentials of the scores less their row's largest, their row sums, and the quotients. -/
def pT (s : FVec F S512x2048 .f32) : FVec F S512x2048 .f32 :=
  exp (subf s (broadcastTo S512x2048 (shapeCast S512x1 (mxT s) shapeCasts_S512_S512x1) broadcasts_S512x1_S512x2048))
def lT (p : FVec F S512x2048 .f32) : FVec F S512 .f32 :=
  multiReduction .add [1] S512 p 0x00000000#32 reduces_S512x2048_S512 (.inl rfl) rfl
def aT (p : FVec F S512x2048 .f32) : FVec F S512x2048 .f32 :=
  divf p (broadcastTo S512x2048 (shapeCast S512x1 (lT p) shapeCasts_S512_S512x1) broadcasts_S512x1_S512x2048)
/-- The attention weights times the batch's values. -/
def eT (att : FVec F S512x2048 .f32) (v24 : FVec F S2048x128 .bf16) : FVec F S512x128 .f32 :=
  matmul dot_S512x2048_S2048x128_S512x128_1_0_0_1_n_n none (truncf .bf16 att bitsLt_bf16_f32) v24 (constant S512x128 .f32 0x00000000#32)
/-- Each row divided by its length, the squared length clamped below by the small literal. -/
def nrm (x : FVec F S512x128 .f32) : FVec F S512x128 .f32 :=
  mulf x (broadcastTo S512x128 (rsqrt (maximumf (shapeCast S512x1 (multiReduction .add [1] S512 (mulf x x) 0x00000000#32 reduces_S512x128_S512 (.inl rfl) rfl) shapeCasts_S512_S512x1)
    (broadcast S512x1 (Scalar.ofBits .f32 0x2B8CBCCC#32)))) broadcasts_S512x1_S512x128)
/-- The batch's key and value pre-activations side by side: its rows times the key and value weights, plus their biases. -/
def kvT (v65 : Vec F S1x2048x256 .f32) (v68 : Vec F S256x256 .f32) (v72 : Vec F S256 .f32) : FVec F S2048x256 .f32 :=
  addf (matmul dot_S2048x256_S256x256_S2048x256_1_0_0_1_n_n none (truncf .bf16 (shapeCast S2048x256 v65 shapeCasts_S1x2048x256_S2048x256) bitsLt_bf16_f32) (truncf .bf16 (shapeCast S256x256 v68 shapeCasts_S256x256_S256x256) bitsLt_bf16_f32) (constant S2048x256 .f32 0x00000000#32))
    (broadcastTo S2048x256 (shapeCast S1x256 (shapeCast S256 v72 shapeCasts_S256_S256) shapeCasts_S256_S1x256) broadcasts_S1x256_S2048x256)

theorem pay7_eq (v8 : Vec F S512x256 .f32) (v11 : Vec F S256x128 .f32) (v14 : Vec F S128 .f32) (v21 : Vec F S2048x128 .f32) :
    k0_pay7 v8 v11 v14 v21 = aT (pT (sT (qT v8 v11 v14) v21)) := rfl
theorem pay2_eq (v24 : FVec F S2048x128 .bf16) (v36 : FVec F S512x2048 .f32) (v51 : Vec F S512x128 .f32) :
    k0_pay2 v24 v36 v51 = shapeCast S1x512x128 (nrm (addf v51 (nrm (eT v36 v24)))) shapeCasts_S512x128_S1x512x128 := rfl
theorem pay4_eq (v65 : Vec F S1x2048x256 .f32) (v68 : Vec F S256x256 .f32) (v72 : Vec F S256 .f32) :
    k0_pay4 v65 v68 v72 = shapeCast S2048x128 (extractStridedSlice S2048x128 ![0, 0] (kvT v65 v68 v72) slices_S2048x256_o0_0_S2048x128) shapeCasts_S2048x128_S2048x128 := rfl
theorem pay5_eq (v65 : Vec F S1x2048x256 .f32) (v68 : Vec F S256x256 .f32) (v72 : Vec F S256 .f32) :
    k0_pay5 v65 v68 v72 = shapeCast S2048x128 (maximumf (extractStridedSlice S2048x128 ![0, 128] (kvT v65 v68 v72) slices_S2048x256_o0_128_S2048x128)
      (broadcast S2048x128 (Scalar.ofBits .f32 0x00000000#32))) shapeCasts_S2048x128_S2048x128 := rfl
theorem pay1_eq (v36 : FVec F S512x2048 .f32) : k0_pay1 v36 = shapeCast S1x512x2048 v36 shapeCasts_S512x2048_S1x512x2048 := rfl
theorem pay6_eq (v23 : Vec F S2048x128 .f32) : k0_pay6 v23 = truncf .bf16 v23 bitsLt_bf16_f32 := rfl

end Stages

/-! ## Each stage at an entry, at the ideal instance -/

theorem lift1_2048 (r : Fin 512) (k : Fin 2048) : reduces_S512x2048_S512.lift (ix1 r) k = ix2 r k :=
  funext fun a => Fin.ext (by match a with | ⟨0, _⟩ => rfl | ⟨1, _⟩ => rfl)
theorem lift1_128 (r : Fin 512) (k : Fin 128) : reduces_S512x128_S512.lift (ix1 r) k = ix2 r k :=
  funext fun a => Fin.ext (by match a with | ⟨0, _⟩ => rfl | ⟨1, _⟩ => rfl)

theorem qT_apply (v8 : Vec Ideal S512x256 .f32) (v11 : Vec Ideal S256x128 .f32) (v14 : Vec Ideal S128 .f32) (r : Fin 512) (e : Fin 128) :
    qT v8 v11 v14 (ix2 r e) = (∑ d : Fin 256, v8 (ix2 r d) * v11 (ix2 d e)) + v14 (ix1 e) := by
  unfold qT
  rw [addf_apply, mm_q, broadcastTo_1b_ab_apply, shapeCast_a_1a_apply, shapeCast_self, shapeCast_self, shapeCast_self]
  rfl

theorem sT_apply (q : FVec Ideal S512x128 .f32) (k : Vec Ideal S2048x128 .f32) (r : Fin 512) (n : Fin 2048) :
    sT q k (ix2 r n) = (∑ e : Fin 128, q (ix2 r e) * k (ix2 n e)) * Ideal.ofBits .f32 0x3D800000#32 := by
  unfold sT
  rw [mulf_apply, mm_s]
  rfl

theorem mxT_apply (s : FVec Ideal S512x2048 .f32) (r : Fin 512) :
    mxT s (ix1 r) = (Finset.univ : Finset (Fin 2048)).fold max (Ideal.ofBits .f32 0xFF800000#32) (fun n => s (ix2 r n)) := by
  unfold mxT
  refine (Ideal.multiReduction_maximumf_single s 0xFF800000#32 reduces_S512x2048_S512 (.inl rfl) rfl (ix1 r)).trans ?_
  refine congrArg (fun f => (Finset.univ : Finset (Fin 2048)).fold max (Ideal.ofBits .f32 0xFF800000#32) f) (funext fun k => ?_)
  exact congrArg s (lift1_2048 r k)

theorem pT_apply (s : FVec Ideal S512x2048 .f32) (r : Fin 512) (n : Fin 2048) :
    pT s (ix2 r n) = Ideal.exp (s (ix2 r n) - mxT s (ix1 r)) := by
  unfold pT
  show Ideal.exp (s (ix2 r n) - broadcastTo S512x2048 (shapeCast S512x1 (mxT s) shapeCasts_S512_S512x1) broadcasts_S512x1_S512x2048 (ix2 r n)) = _
  rw [broadcastTo_a1_ab_apply, shapeCast_a_a1_apply]

theorem lT_apply (p : FVec Ideal S512x2048 .f32) (r : Fin 512) : lT p (ix1 r) = ∑ n : Fin 2048, p (ix2 r n) := by
  unfold lT
  refine (Ideal.multiReduction_add_single p 0x00000000#32 reduces_S512x2048_S512 (.inl rfl) rfl (ix1 r)).trans ?_
  exact Finset.sum_congr rfl fun k _ => congrArg p (lift1_2048 r k)

theorem aT_apply (p : FVec Ideal S512x2048 .f32) (r : Fin 512) (n : Fin 2048) :
    aT p (ix2 r n) = Ideal.div (p (ix2 r n)) (lT p (ix1 r)) := by
  unfold aT
  rw [divf_apply, broadcastTo_a1_ab_apply, shapeCast_a_a1_apply]

theorem eT_apply (att : FVec Ideal S512x2048 .f32) (v : FVec Ideal S2048x128 .bf16) (r : Fin 512) (c : Fin 128) :
    eT att v (ix2 r c) = ∑ n : Fin 2048, att (ix2 r n) * v (ix2 n c) := by
  unfold eT
  rw [mm_e]
  rfl

theorem nrm_apply (x : FVec Ideal S512x128 .f32) (r : Fin 512) (c : Fin 128) :
    nrm x (ix2 r c) = x (ix2 r c) * Ideal.rsqrt (max (∑ k : Fin 128, x (ix2 r k) * x (ix2 r k)) (Ideal.ofBits .f32 0x2B8CBCCC#32)) := by
  unfold nrm
  rw [mulf_apply, broadcastTo_a1_ab_apply]
  show x (ix2 r c) * Ideal.rsqrt (max (shapeCast S512x1 _ shapeCasts_S512_S512x1 (ix2 r (0 : Fin 1))) (Ideal.ofBits .f32 0x2B8CBCCC#32)) = _
  rw [shapeCast_a_a1_apply]
  refine congrArg (fun z => x (ix2 r c) * Ideal.rsqrt (max z (Ideal.ofBits .f32 0x2B8CBCCC#32)))
    ((Ideal.multiReduction_add_single (mulf x x) 0x00000000#32 reduces_S512x128_S512 (.inl rfl) rfl (ix1 r)).trans (Finset.sum_congr rfl fun k _ => ?_))
  exact congrArg (fun z => x z * x z) (lift1_128 r k)

theorem kvT_apply (v65 : Vec Ideal S1x2048x256 .f32) (v68 : Vec Ideal S256x256 .f32) (v72 : Vec Ideal S256 .f32) (n : Fin 2048) (j : Fin 256) :
    kvT v65 v68 v72 (ix2 n j) = (∑ d : Fin 256, v65 (ix3 (0 : Fin 1) n d) * v68 (ix2 d j)) + v72 (ix1 j) := by
  unfold kvT
  rw [addf_apply, mm_kv, broadcastTo_1b_ab_apply, shapeCast_a_1a_apply, shapeCast_self, shapeCast_self]
  refine congrArg (· + _) (Finset.sum_congr rfl fun d _ => ?_)
  show shapeCast S2048x256 v65 shapeCasts_S1x2048x256_S2048x256 (ix2 n d) * _ = _
  rw [shapeCast_1ab_ab_apply]
  rfl

end Cert.KernelIdeal.Mth

end
-- ==== Proof.RefEntries.lean ====
/-
  The reference's stages read at an entry, in plain sums.
  With g the gathered rows: the three projections are g's rows times a weight matrix plus a bias (the value one clamped
  below by zero); the scaled scores are the queries' rows against the keys' rows over the 128 features, divided by the square
  root of 256; each row's largest score is a fold of max from minus infinity (the reference also takes the max of that with
  minus infinity, which changes nothing); the attention weights are exp(score - row max) over their row sum; the attended
  values are the weights' rows against the values' columns over the 2048 keys; a normalisation multiplies a row by the
  reciprocal square root of its squared length clamped below by the small literal.
-/
import proofs.«126917_j10161892623138_2_alg».proof.Proof.RefRead
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Gen Cert.ReferenceIdeal.Read
open Idealize.ShloMosaic Idealize.ShloMosaic.ValueIdx
open scoped BigOperators

variable (Y : (⟨S8x4096x256, .f32⟩ : BufTy).Contents (Elt Ideal)) (I : (⟨S8x2048, .i32⟩ : BufTy).Contents (Elt Ideal))
  (Wq : (⟨S256x128, .f32⟩ : BufTy).Contents (Elt Ideal)) (bq : (⟨S128, .f32⟩ : BufTy).Contents (Elt Ideal))
  (Wk : (⟨S256x128, .f32⟩ : BufTy).Contents (Elt Ideal)) (bk : (⟨S128, .f32⟩ : BufTy).Contents (Elt Ideal))
  (Wv : (⟨S256x128, .f32⟩ : BufTy).Contents (Elt Ideal)) (bv : (⟨S128, .f32⟩ : BufTy).Contents (Elt Ideal))

/-! ## The three projections -/

theorem q_apply (b : Fin 8) (R : Fin 2048) (e : Fin 128) :
    val_main_v5 (F := Ideal) Y I Wq bq (ix3 b R e) = (∑ d : Fin 256, val_main_v1 (F := Ideal) Y I (ix3 b R d) * Wq (ix2 d e)) + bq (ix1 e) := by
  rw [val_main_v5_apply, val_main_v2_apply, val_main_v4_apply, val_main_v3_apply]
  have e1 : ∀ k, lidx_main_v2 (ix3 b R e) k = ix3 b R k := fun k => (funext fun a => Fin.ext (by match a with | ⟨0, _⟩ => rfl | ⟨1, _⟩ => rfl | ⟨2, _⟩ => rfl))
  have e2 : ∀ k, ridx_main_v2 (ix3 b R e) k = ix2 k e := fun k => (funext fun a => Fin.ext (by match a with | ⟨0, _⟩ => rfl | ⟨1, _⟩ => rfl))
  have e3 : idx_main_v3 (idx_main_v4 (ix3 b R e)) = ix1 e := (funext fun a => Fin.ext (by match a with | ⟨0, _⟩ => rfl))
  simp only [e1, e2, e3]
  rfl

theorem k_apply (b : Fin 8) (R : Fin 2048) (e : Fin 128) :
    val_main_v9 (F := Ideal) Y I Wk bk (ix3 b R e) = (∑ d : Fin 256, val_main_v1 (F := Ideal) Y I (ix3 b R d) * Wk (ix2 d e)) + bk (ix1 e) := by
  rw [val_main_v9_apply, val_main_v6_apply, val_main_v8_apply, val_main_v7_apply]
  have e1 : ∀ k, lidx_main_v6 (ix3 b R e) k = ix3 b R k := fun k => (funext fun a => Fin.ext (by match a with | ⟨0, _⟩ => rfl | ⟨1, _⟩ => rfl | ⟨2, _⟩ => rfl))
  have e2 : ∀ k, ridx_main_v6 (ix3 b R e) k = ix2 k e := fun k => (funext fun a => Fin.ext (by match a with | ⟨0, _⟩ => rfl | ⟨1, _⟩ => rfl))
  have e3 : idx_main_v7 (idx_main_v8 (ix3 b R e)) = ix1 e := (funext fun a => Fin.ext (by match a with | ⟨0, _⟩ => rfl))
  simp only [e1, e2, e3]
  rfl

theorem vpre_apply (b : Fin 8) (R : Fin 2048) (e : Fin 128) :
    val_main_v13 (F := Ideal) Y I Wv bv (ix3 b R e) = (∑ d : Fin 256, val_main_v1 (F := Ideal) Y I (ix3 b R d) * Wv (ix2 d e)) + bv (ix1 e) := by
  rw [val_main_v13_apply, val_main_v10_apply, val_main_v12_apply, val_main_v11_apply]
  have e1 : ∀ k, lidx_main_v10 (ix3 b R e) k = ix3 b R k := fun k => (funext fun a => Fin.ext (by match a with | ⟨0, _⟩ => rfl | ⟨1, _⟩ => rfl | ⟨2, _⟩ => rfl))
  have e2 : ∀ k, ridx_main_v10 (ix3 b R e) k = ix2 k e := fun k => (funext fun a => Fin.ext (by match a with | ⟨0, _⟩ => rfl | ⟨1, _⟩ => rfl))
  have e3 : idx_main_v11 (idx_main_v12 (ix3 b R e)) = ix1 e := (funext fun a => Fin.ext (by match a with | ⟨0, _⟩ => rfl))
  simp only [e1, e2, e3]
  rfl

theorem v_apply (b : Fin 8) (R : Fin 2048) (e : Fin 128) :
    val_main_v14 (F := Ideal) Y I Wv bv (ix3 b R e) = max (val_main_v13 (F := Ideal) Y I Wv bv (ix3 b R e)) (Ideal.ofBits .f32 0x00000000#32) := by
  rw [val_main_v14_apply, val_main_call1_v0_apply, val_main_call1_cst_apply]
  rfl

/-! ## Scores, softmax -/

theorem s_apply (b : Fin 8) (R n : Fin 2048) :
    val_main_v18 (F := Ideal) Y I Wq bq Wk bk (ix3 b R n) = Ideal.div (∑ e : Fin 128, val_main_v5 (F := Ideal) Y I Wq bq (ix3 b R e) * val_main_v9 (F := Ideal) Y I Wk bk (ix3 b n e)) (Ideal.sqrt (Ideal.ofBits .f32 0x43800000#32)) := by
  rw [val_main_v18_apply, val_main_v15_apply, val_main_v17_apply, val_main_v16_apply, val_main_cst_apply]
  have e1 : ∀ k, lidx_main_v15 (ix3 b R n) k = ix3 b R k := fun k => (funext fun a => Fin.ext (by match a with | ⟨0, _⟩ => rfl | ⟨1, _⟩ => rfl | ⟨2, _⟩ => rfl))
  have e2 : ∀ k, ridx_main_v15 (ix3 b R n) k = ix3 b n k := fun k => (funext fun a => Fin.ext (by match a with | ⟨0, _⟩ => rfl | ⟨1, _⟩ => rfl | ⟨2, _⟩ => rfl))
  simp only [e1, e2]
  rfl

theorem lift_bR (b : Fin 8) (R k : Fin 2048) (h : S8x2048x2048.Reduces [2] S8x2048) : h.lift (ix2 b R) k = ix3 b R k :=
  funext fun a => Fin.ext (by match a with | ⟨0, _⟩ => rfl | ⟨1, _⟩ => rfl | ⟨2, _⟩ => rfl)

theorem m_apply (b : Fin 8) (R : Fin 2048) :
    val_main_v21 (F := Ideal) Y I Wq bq Wk bk (ix2 b R) = (Finset.univ : Finset (Fin 2048)).fold max (Ideal.ofBits .f32 0xFF800000#32) (fun n => val_main_v18 (F := Ideal) Y I Wq bq Wk bk (ix3 b R n)) := by
  have hred : S8x2048x2048.Reduces [2] S8x2048 := by decide
  rw [val_main_v21_apply, val_main_v20_apply, val_main_cst_1_apply]
  unfold val_main_v19
  rw [Host.reduce_eq_fold_single FloatOps.maximumf _ _ reducesTo_S8x2048x2048_S8x2048_d2 hred h_S_ (ix2 b R)]
  have ef : (val_main_v18 (F := Ideal) Y I Wq bq Wk bk ∘ hred.lift (ix2 b R)) = fun n : Fin 2048 => val_main_v18 (F := Ideal) Y I Wq bq Wk bk (ix3 b R n) :=
    funext fun k => congrArg (val_main_v18 (F := Ideal) Y I Wq bq Wk bk) (lift_bR b R k hred)
  rw [val_main_cst_0_apply]
  show max (Ideal.ofBits .f32 0xFF800000#32) ((Finset.univ : Finset (Fin 2048)).fold max (Ideal.ofBits .f32 0xFF800000#32) (val_main_v18 (F := Ideal) Y I Wq bq Wk bk ∘ hred.lift (ix2 b R))) = _
  rw [ef]
  exact max_eq_right ((Finset.le_fold_max _).mpr (Or.inl le_rfl))

theorem p_apply (b : Fin 8) (R n : Fin 2048) :
    val_main_v25 (F := Ideal) Y I Wq bq Wk bk (ix3 b R n) = Ideal.exp (val_main_v18 (F := Ideal) Y I Wq bq Wk bk (ix3 b R n) - val_main_v21 (F := Ideal) Y I Wq bq Wk bk (ix2 b R)) := by
  rw [val_main_v25_apply, val_main_v24_apply, val_main_v23_apply, val_main_v22_apply]
  have e1 : idx_main_v22 (idx_main_v23 (ix3 b R n)) = ix2 b R := (funext fun a => Fin.ext (by match a with | ⟨0, _⟩ => rfl | ⟨1, _⟩ => rfl))
  simp only [e1]
  rfl

theorem l_apply (b : Fin 8) (R : Fin 2048) :
    val_main_v26 (F := Ideal) Y I Wq bq Wk bk (ix2 b R) = Ideal.ofBits .f32 0x00000000#32 + ∑ n : Fin 2048, val_main_v25 (F := Ideal) Y I Wq bq Wk bk (ix3 b R n) := by
  rw [val_main_v26_apply, val_main_cst_2_apply]
  have e1 : ∀ k, idx_main_v26 (ix2 b R) k = ix3 b R k := fun k => (funext fun a => Fin.ext (by match a with | ⟨0, _⟩ => rfl | ⟨1, _⟩ => rfl | ⟨2, _⟩ => rfl))
  simp only [e1]
  rfl

theorem a_apply (b : Fin 8) (R n : Fin 2048) :
    val_main_v29 (F := Ideal) Y I Wq bq Wk bk (ix3 b R n) = Ideal.div (val_main_v25 (F := Ideal) Y I Wq bq Wk bk (ix3 b R n)) (val_main_v26 (F := Ideal) Y I Wq bq Wk bk (ix2 b R)) := by
  rw [val_main_v29_apply, val_main_v28_apply, val_main_v27_apply]
  have e1 : idx_main_v27 (idx_main_v28 (ix3 b R n)) = ix2 b R := (funext fun a => Fin.ext (by match a with | ⟨0, _⟩ => rfl | ⟨1, _⟩ => rfl))
  simp only [e1]
  rfl

/-! ## The attended values and the two normalisations -/

theorem e_apply (b : Fin 8) (R : Fin 2048) (e : Fin 128) :
    val_main_v30 (F := Ideal) Y I Wq bq Wk bk Wv bv (ix3 b R e) = ∑ n : Fin 2048, val_main_v29 (F := Ideal) Y I Wq bq Wk bk (ix3 b R n) * val_main_v14 (F := Ideal) Y I Wv bv (ix3 b n e) := by
  rw [val_main_v30_apply]
  have e1 : ∀ k, lidx_main_v30 (ix3 b R e) k = ix3 b R k := fun k => (funext fun a => Fin.ext (by match a with | ⟨0, _⟩ => rfl | ⟨1, _⟩ => rfl | ⟨2, _⟩ => rfl))
  have e2 : ∀ k, ridx_main_v30 (ix3 b R e) k = ix3 b k e := fun k => (funext fun a => Fin.ext (by match a with | ⟨0, _⟩ => rfl | ⟨1, _⟩ => rfl | ⟨2, _⟩ => rfl))
  simp only [e1, e2]

theorem n1_apply (b : Fin 8) (R : Fin 2048) (e : Fin 128) :
    val_main_v38 (F := Ideal) Y I Wq bq Wk bk Wv bv (ix3 b R e) = val_main_v30 (F := Ideal) Y I Wq bq Wk bk Wv bv (ix3 b R e) * Ideal.rsqrt (max (Ideal.ofBits .f32 0x00000000#32 + ∑ k : Fin 128, val_main_v30 (F := Ideal) Y I Wq bq Wk bk Wv bv (ix3 b R k) * val_main_v30 (F := Ideal) Y I Wq bq Wk bk Wv bv (ix3 b R k)) (Ideal.ofBits .f32 0x2B8CBCCC#32)) := by
  rw [val_main_v38_apply, val_main_v37_apply, val_main_v36_apply, val_main_v35_apply, val_main_v33_apply, val_main_v32_apply, val_main_v34_apply, val_main_cst_4_apply, val_main_cst_3_apply]
  have e1 : idx_main_v33 (idx_main_v37 (ix3 b R e)) = ix2 b R := (funext fun a => Fin.ext (by match a with | ⟨0, _⟩ => rfl | ⟨1, _⟩ => rfl))
  have e2 : ∀ k, idx_main_v32 (ix2 b R) k = ix3 b R k := fun k => (funext fun a => Fin.ext (by match a with | ⟨0, _⟩ => rfl | ⟨1, _⟩ => rfl | ⟨2, _⟩ => rfl))
  simp only [e1, e2, val_main_v31_apply]
  rfl

theorem c_apply (b : Fin 8) (R : Fin 2048) (e : Fin 128) :
    val_main_v39 (F := Ideal) Y I Wq bq Wk bk Wv bv (ix3 b R e) = val_main_v14 (F := Ideal) Y I Wv bv (ix3 b R e) + val_main_v38 (F := Ideal) Y I Wq bq Wk bk Wv bv (ix3 b R e) := by
  rw [val_main_v39_apply]
  rfl

set_option maxRecDepth 131072 in
theorem o_apply (b : Fin 8) (R : Fin 2048) (e : Fin 128) :
    val_main_v47 (F := Ideal) Y I Wq bq Wk bk Wv bv (ix3 b R e) = val_main_v39 (F := Ideal) Y I Wq bq Wk bk Wv bv (ix3 b R e) * Ideal.rsqrt (max (Ideal.ofBits .f32 0x00000000#32 + ∑ k : Fin 128, val_main_v39 (F := Ideal) Y I Wq bq Wk bk Wv bv (ix3 b R k) * val_main_v39 (F := Ideal) Y I Wq bq Wk bk Wv bv (ix3 b R k)) (Ideal.ofBits .f32 0x2B8CBCCC#32)) := by
  rw [val_main_v47_apply, val_main_v46_apply, val_main_v45_apply, val_main_v44_apply, val_main_v42_apply, val_main_v41_apply, val_main_v43_apply, val_main_cst_6_apply, val_main_cst_5_apply]
  have e1 : idx_main_v42 (idx_main_v46 (ix3 b R e)) = ix2 b R := (funext fun a => Fin.ext (by match a with | ⟨0, _⟩ => rfl | ⟨1, _⟩ => rfl))
  have e2 : ∀ k, idx_main_v41 (ix2 b R) k = ix3 b R k := fun k => (funext fun a => Fin.ext (by match a with | ⟨0, _⟩ => rfl | ⟨1, _⟩ => rfl | ⟨2, _⟩ => rfl))
  simp only [e1, e2, val_main_v40_apply]
  rfl

end Cert.ReferenceIdeal.RefVal

end
-- ==== Proof.KI.Tile.lean ====
/-
  A tile of the kernel's results is the reference's arrays restricted to the tile's rows.
  Given that a point's three input blocks are batch b's gathered rows, the three weight matrices side by side and the three
  bias vectors end to end, the body's loads read those at fixed offsets (the query part at column 0, the key part at 128, the
  value part at 256; the tile's rows at row 512 times the tile number). Then, bottom-up: the tile's queries, the batch's keys
  and values, the scaled scores (multiplying by one sixteenth is dividing by the square root of 256), each row's maximum (a
  fold of max from minus infinity on both sides), the exponentials, their row sums (the host's sum starts from a zero, which
  adds nothing), the quotients, the product with the values, and the two normalisations are, entry by entry, the reference's
  stages at batch b and row 512 (tile) + r. No step needs the inputs to be finite: every law used holds on all extended reals.
-/
import proofs.«126917_j10161892623138_2_alg».proof.Proof.KI.Stages
import proofs.«126917_j10161892623138_2_alg».proof.Proof.RefEntries

set_option maxRecDepth 16384

noncomputable section

namespace Cert.KernelIdeal.Mth

open Cert.KernelIdeal Cert.KernelIdeal.Gen Cert.KernelIdeal.Frm
open Idealize.ShloMosaic Idealize.ShloMosaic.TcCoe Idealize.SL.Sem
open Idealize.ShloMosaic.ValueIdx
open scoped BigOperators

/-! ## The body's loads, at an entry -/

theorem ldWq_at (x : Vec Ideal S256x384 .f32) (p : Fin 256) (q : Fin 128) (k : Fin 384) (hk : k.val = q.val) :
    ldWq x (ix2 p q) = x (ix2 p k) :=
  congrArg x (funext fun a => Fin.ext (by
    match a with
    | ⟨0, _⟩ => show 0 + 1 * p.val = p.val; omega
    | ⟨1, _⟩ => show 0 + 1 * q.val = k.val; omega))

theorem ldWkv_at (x : Vec Ideal S256x384 .f32) (p : Fin 256) (q : Fin 256) (k : Fin 384) (hk : k.val = 128 + q.val) :
    ldWkv x (ix2 p q) = x (ix2 p k) :=
  congrArg x (funext fun a => Fin.ext (by
    match a with
    | ⟨0, _⟩ => show 0 + 1 * p.val = p.val; omega
    | ⟨1, _⟩ => show 128 + 1 * q.val = k.val; omega))

theorem ldBq_at (x : Vec Ideal S384 .f32) (q : Fin 128) (k : Fin 384) (hk : k.val = q.val) :
    ldBq x (ix1 q) = x (ix1 k) :=
  congrArg x (funext fun a => Fin.ext (by
    match a with
    | ⟨0, _⟩ => show 0 + 1 * q.val = k.val; omega))

theorem ldBkv_at (x : Vec Ideal S384 .f32) (q : Fin 256) (k : Fin 384) (hk : k.val = 128 + q.val) :
    ldBkv x (ix1 q) = x (ix1 k) :=
  congrArg x (funext fun a => Fin.ext (by
    match a with
    | ⟨0, _⟩ => show 128 + 1 * q.val = k.val; omega))

theorem ldRows_apply (i : grid0.Coords) (x0 : Vec Ideal S1x2048x256 .f32) (r : Fin 512) (d : Fin 256) (R : Fin 2048) (hR : R.val = 512 * (i 1).val + r.val) :
    ldRows i x0 (ix2 r d) = x0 (ix3 (0 : Fin 1) R d) := by
  have hidx : (Rect.unit (s := S2048x256) (k0_off1 i) S512x256.size (k0_off1_inb i)).idx (ix2 r d) = ix2 R d := funext fun a => Fin.ext (by
    match a with
    | ⟨0, _⟩ => show (k0_off1 i) 0 + 1 * r.val = R.val; rw [k0_off1_eq]; show 512 * (i 1).val + 1 * r.val = R.val; omega
    | ⟨1, _⟩ => show (k0_off1 i) 1 + 1 * d.val = d.val; rw [k0_off1_eq]; show 0 + 1 * d.val = d.val; omega)
  show shapeCast S2048x256 x0 shapeCasts_S1x2048x256_S2048x256 ((Rect.unit (s := S2048x256) (k0_off1 i) S512x256.size (k0_off1_inb i)).idx (ix2 r d)) = _
  rw [hidx, shapeCast_1ab_ab_apply]

theorem ldVrows_apply (i : grid0.Coords) (v : Vec Ideal S2048x128 .f32) (r : Fin 512) (c : Fin 128) (R : Fin 2048) (hR : R.val = 512 * (i 1).val + r.val) :
    ldVrows i v (ix2 r c) = v (ix2 R c) :=
  congrArg v (funext fun a => Fin.ext (by
    match a with
    | ⟨0, _⟩ => show (k0_off2 i) 0 + 1 * r.val = R.val; rw [k0_off2_eq]; show 512 * (i 1).val + 1 * r.val = R.val; omega
    | ⟨1, _⟩ => show (k0_off2 i) 1 + 1 * c.val = c.val; rw [k0_off2_eq]; show 0 + 1 * c.val = c.val; omega))

/-! ## Three laws on the extended reals -/

/-- The literals: 256, and one sixteenth. -/
theorem ofBits_256 : Ideal.ofBits .f32 0x43800000#32 = ((256 : ℝ) : EReal) := by
  simp [Ideal.ofBits, Ideal.ieee, -EReal.coe_mul]; norm_num
theorem ofBits_sixteenth : Ideal.ofBits .f32 0x3D800000#32 = (((1 : ℝ) / 16 : ℝ) : EReal) := by
  simp [Ideal.ofBits, Ideal.ieee, -EReal.coe_mul]; norm_num

/-- Multiplying by one sixteenth is dividing by the square root of 256, on every extended real. -/
theorem scale_law (x : EReal) : x * Ideal.ofBits .f32 0x3D800000#32 = Ideal.div x (Ideal.sqrt (Ideal.ofBits .f32 0x43800000#32)) := by
  have hs : Ideal.sqrt (((256 : ℝ)) : EReal) = ((16 : ℝ) : EReal) := by
    rw [Ideal.sqrt_coe, if_neg (by norm_num)]
    congr 1
    rw [show (256 : ℝ) = 16 ^ 2 by norm_num, Real.sqrt_sq (by norm_num)]
  rw [ofBits_256, hs, ofBits_sixteenth, Ideal.div_coe (by norm_num : (16 : ℝ) ≠ 0)]

/-- The host sums start from the zero literal, which adds nothing. -/
theorem zero_add_lit (x : EReal) : Ideal.ofBits .f32 0x00000000#32 + x = x := by
  rw [Ideal.ofBits_zero_f32, zero_add]

/-! ## The tile against the reference -/

section Bridge
variable (Y : (⟨Cert.ReferenceIdeal.S8x4096x256, .f32⟩ : BufTy).Contents (Elt Ideal)) (I : (⟨Cert.ReferenceIdeal.S8x2048, .i32⟩ : BufTy).Contents (Elt Ideal))
  (Wq : (⟨Cert.ReferenceIdeal.S256x128, .f32⟩ : BufTy).Contents (Elt Ideal)) (bq : (⟨Cert.ReferenceIdeal.S128, .f32⟩ : BufTy).Contents (Elt Ideal))
  (Wk : (⟨Cert.ReferenceIdeal.S256x128, .f32⟩ : BufTy).Contents (Elt Ideal)) (bk : (⟨Cert.ReferenceIdeal.S128, .f32⟩ : BufTy).Contents (Elt Ideal))
  (Wv : (⟨Cert.ReferenceIdeal.S256x128, .f32⟩ : BufTy).Contents (Elt Ideal)) (bv : (⟨Cert.ReferenceIdeal.S128, .f32⟩ : BufTy).Contents (Elt Ideal))

/-- What the three input blocks of a point of batch `b` are: the batch's gathered rows; the three weight matrices side by
    side; the three bias vectors end to end. -/
structure Inputs (b : Fin 8) (rows : Vec Ideal S1x2048x256 .f32) (wc : Vec Ideal S256x384 .f32) (bc : Vec Ideal S384 .f32) : Prop where
  hrows : ∀ (n : Fin 2048) (d : Fin 256), rows (ix3 (0 : Fin 1) n d) = Cert.ReferenceIdeal.Read.val_main_v1 (F := Ideal) Y I (ix3 b n d)
  hWq : ∀ (d : Fin 256) (e : Fin 128), wc (ix2 d (⟨e.val, by have := e.isLt; omega⟩ : Fin 384)) = Wq (ix2 d e)
  hWk : ∀ (d : Fin 256) (e : Fin 128), wc (ix2 d (⟨128 + e.val, by have := e.isLt; omega⟩ : Fin 384)) = Wk (ix2 d e)
  hWv : ∀ (d : Fin 256) (e : Fin 128), wc (ix2 d (⟨256 + e.val, by have := e.isLt; omega⟩ : Fin 384)) = Wv (ix2 d e)
  hbq : ∀ e : Fin 128, bc (ix1 (⟨e.val, by have := e.isLt; omega⟩ : Fin 384)) = bq (ix1 e)
  hbk : ∀ e : Fin 128, bc (ix1 (⟨128 + e.val, by have := e.isLt; omega⟩ : Fin 384)) = bk (ix1 e)
  hbv : ∀ e : Fin 128, bc (ix1 (⟨256 + e.val, by have := e.isLt; omega⟩ : Fin 384)) = bv (ix1 e)

variable {Y I Wq bq Wk bk Wv bv}
variable {b : Fin 8} {rows : Vec Ideal S1x2048x256 .f32} {wc : Vec Ideal S256x384 .f32} {bc : Vec Ideal S384 .f32}

/-- The key projection the body builds is the reference's. -/
theorem keyM (h : Inputs Y I Wq bq Wk bk Wv bv b rows wc bc) (n : Fin 2048) (e : Fin 128) :
    projK rows wc bc (ix2 n e) = Cert.ReferenceIdeal.Read.val_main_v9 (F := Ideal) Y I Wk bk (ix3 b n e) := by
  unfold projK
  rw [pay4_eq, shapeCast_self]
  refine (slice2_axis1_apply 0 _ _ n e (⟨e.val, by have := e.isLt; omega⟩ : Fin 256) (by simp)).trans ?_
  rw [kvT_apply, Cert.ReferenceIdeal.RefVal.k_apply]
  refine congrArg₂ (· + ·) (Finset.sum_congr rfl fun d _ => ?_) ?_
  · rw [h.hrows, ldWkv_at wc d _ (⟨128 + e.val, by have := e.isLt; omega⟩ : Fin 384) rfl]
    exact congrArg (fun z : EReal => Cert.ReferenceIdeal.Read.val_main_v1 (F := Ideal) Y I (ix3 b n d) * z) (h.hWk d e)
  · rw [ldBkv_at bc _ (⟨128 + e.val, by have := e.isLt; omega⟩ : Fin 384) rfl]
    exact h.hbk e

/-- The value projection likewise, clamped below by zero. -/
theorem valM (h : Inputs Y I Wq bq Wk bk Wv bv b rows wc bc) (n : Fin 2048) (e : Fin 128) :
    projV rows wc bc (ix2 n e) = Cert.ReferenceIdeal.Read.val_main_v14 (F := Ideal) Y I Wv bv (ix3 b n e) := by
  unfold projV
  rw [pay5_eq, shapeCast_self, maximumf_apply, Cert.ReferenceIdeal.RefVal.v_apply]
  refine congrArg₂ max ?_ rfl
  refine (slice2_axis1_apply 128 _ _ n e (⟨128 + e.val, by have := e.isLt; omega⟩ : Fin 256) rfl).trans ?_
  rw [kvT_apply, Cert.ReferenceIdeal.RefVal.vpre_apply]
  refine congrArg₂ (· + ·) (Finset.sum_congr rfl fun d _ => ?_) ?_
  · rw [h.hrows, ldWkv_at wc d _ (⟨256 + e.val, by have := e.isLt; omega⟩ : Fin 384) (by show 256 + e.val = 128 + (128 + e.val); omega)]
    exact congrArg (fun z : EReal => Cert.ReferenceIdeal.Read.val_main_v1 (F := Ideal) Y I (ix3 b n d) * z) (h.hWv d e)
  · rw [ldBkv_at bc _ (⟨256 + e.val, by have := e.isLt; omega⟩ : Fin 384) (by show 256 + e.val = 128 + (128 + e.val); omega)]
    exact h.hbv e

variable {i : grid0.Coords} {K Vv : Vec Ideal S2048x128 .f32}

/-- The tile's queries are the reference's queries at the tile's rows. -/
theorem qM (h : Inputs Y I Wq bq Wk bk Wv bv b rows wc bc) (r : Fin 512) (R : Fin 2048) (hR : R.val = 512 * (i 1).val + r.val) (e : Fin 128) :
    qT (ldRows i rows) (ldWq wc) (ldBq bc) (ix2 r e) = Cert.ReferenceIdeal.Read.val_main_v5 (F := Ideal) Y I Wq bq (ix3 b R e) := by
  rw [qT_apply, Cert.ReferenceIdeal.RefVal.q_apply]
  refine congrArg₂ (· + ·) (Finset.sum_congr rfl fun d _ => ?_) ?_
  · rw [ldRows_apply i rows r d R hR, h.hrows, ldWq_at wc d e (⟨e.val, by have := e.isLt; omega⟩ : Fin 384) rfl]
    exact congrArg (fun z : EReal => Cert.ReferenceIdeal.Read.val_main_v1 (F := Ideal) Y I (ix3 b R d) * z) (h.hWq d e)
  · rw [ldBq_at bc e (⟨e.val, by have := e.isLt; omega⟩ : Fin 384) rfl]
    exact h.hbq e

/-- The scaled scores. -/
theorem sM (h : Inputs Y I Wq bq Wk bk Wv bv b rows wc bc) (hK : ∀ (n : Fin 2048) (e : Fin 128), K (ix2 n e) = Cert.ReferenceIdeal.Read.val_main_v9 (F := Ideal) Y I Wk bk (ix3 b n e))
    (r : Fin 512) (R : Fin 2048) (hR : R.val = 512 * (i 1).val + r.val) (n : Fin 2048) :
    sT (qT (ldRows i rows) (ldWq wc) (ldBq bc)) K (ix2 r n) = Cert.ReferenceIdeal.Read.val_main_v18 (F := Ideal) Y I Wq bq Wk bk (ix3 b R n) := by
  rw [sT_apply, Cert.ReferenceIdeal.RefVal.s_apply, scale_law]
  refine congrArg (fun z => Ideal.div z _) (Finset.sum_congr rfl fun e _ => ?_)
  rw [qM h r R hR e, hK n e]

/-- The attention weights of the tile are the reference's at the tile's rows. -/
theorem attM (h : Inputs Y I Wq bq Wk bk Wv bv b rows wc bc) (hK : ∀ (n : Fin 2048) (e : Fin 128), K (ix2 n e) = Cert.ReferenceIdeal.Read.val_main_v9 (F := Ideal) Y I Wk bk (ix3 b n e))
    (r : Fin 512) (R : Fin 2048) (hR : R.val = 512 * (i 1).val + r.val) (n : Fin 2048) :
    aT (pT (sT (qT (ldRows i rows) (ldWq wc) (ldBq bc)) K)) (ix2 r n) = Cert.ReferenceIdeal.Read.val_main_v29 (F := Ideal) Y I Wq bq Wk bk (ix3 b R n) := by
  have hs := fun n' => sM (i := i) h hK r R hR n'
  have hm : mxT (sT (qT (ldRows i rows) (ldWq wc) (ldBq bc)) K) (ix1 r) = Cert.ReferenceIdeal.Read.val_main_v21 (F := Ideal) Y I Wq bq Wk bk (ix2 b R) := by
    rw [mxT_apply, Cert.ReferenceIdeal.RefVal.m_apply]
    exact congrArg (fun f => (Finset.univ : Finset (Fin 2048)).fold max (Ideal.ofBits .f32 0xFF800000#32) f) (funext hs)
  have hp : ∀ n', pT (sT (qT (ldRows i rows) (ldWq wc) (ldBq bc)) K) (ix2 r n') = Cert.ReferenceIdeal.Read.val_main_v25 (F := Ideal) Y I Wq bq Wk bk (ix3 b R n') := fun n' => by
    rw [pT_apply, Cert.ReferenceIdeal.RefVal.p_apply, hs n', hm]
  have hl : lT (pT (sT (qT (ldRows i rows) (ldWq wc) (ldBq bc)) K)) (ix1 r) = Cert.ReferenceIdeal.Read.val_main_v26 (F := Ideal) Y I Wq bq Wk bk (ix2 b R) := by
    rw [lT_apply, Cert.ReferenceIdeal.RefVal.l_apply, zero_add_lit]
    exact Finset.sum_congr rfl fun n' _ => hp n'
  rw [aT_apply, Cert.ReferenceIdeal.RefVal.a_apply, hp n, hl]

theorem tileAttM (h : Inputs Y I Wq bq Wk bk Wv bv b rows wc bc) (hK : ∀ (n : Fin 2048) (e : Fin 128), K (ix2 n e) = Cert.ReferenceIdeal.Read.val_main_v9 (F := Ideal) Y I Wk bk (ix3 b n e))
    (r : Fin 512) (R : Fin 2048) (hR : R.val = 512 * (i 1).val + r.val) (n : Fin 2048) :
    tileAtt i rows wc bc K (ix3 (0 : Fin 1) r n) = Cert.ReferenceIdeal.Read.val_main_v29 (F := Ideal) Y I Wq bq Wk bk (ix3 b R n) := by
  unfold tileAtt
  rw [pay1_eq, pay7_eq, shapeCast_ab_1ab_apply]
  exact attM h hK r R hR n

/-- The tile of normalised outputs is the reference's at the tile's rows. -/
theorem tileOutM (h : Inputs Y I Wq bq Wk bk Wv bv b rows wc bc) (hK : ∀ (n : Fin 2048) (e : Fin 128), K (ix2 n e) = Cert.ReferenceIdeal.Read.val_main_v9 (F := Ideal) Y I Wk bk (ix3 b n e))
    (hV : ∀ (n : Fin 2048) (e : Fin 128), Vv (ix2 n e) = Cert.ReferenceIdeal.Read.val_main_v14 (F := Ideal) Y I Wv bv (ix3 b n e))
    (r : Fin 512) (R : Fin 2048) (hR : R.val = 512 * (i 1).val + r.val) (c : Fin 128) :
    tileOut i rows wc bc K Vv (ix3 (0 : Fin 1) r c) = Cert.ReferenceIdeal.Read.val_main_v47 (F := Ideal) Y I Wq bq Wk bk Wv bv (ix3 b R c) := by
  unfold tileOut
  rw [pay2_eq, pay7_eq, pay6_eq, shapeCast_ab_1ab_apply]
  have he : ∀ c', eT (aT (pT (sT (qT (ldRows i rows) (ldWq wc) (ldBq bc)) K))) (truncf .bf16 Vv bitsLt_bf16_f32) (ix2 r c') = Cert.ReferenceIdeal.Read.val_main_v30 (F := Ideal) Y I Wq bq Wk bk Wv bv (ix3 b R c') := fun c' => by
    rw [eT_apply, Cert.ReferenceIdeal.RefVal.e_apply]
    refine Finset.sum_congr rfl fun n _ => ?_
    rw [attM h hK r R hR n]
    exact congrArg (fun z : EReal => Cert.ReferenceIdeal.Read.val_main_v29 (F := Ideal) Y I Wq bq Wk bk (ix3 b R n) * z) (hV n c')
  have hn1 : ∀ c', nrm (eT (aT (pT (sT (qT (ldRows i rows) (ldWq wc) (ldBq bc)) K))) (truncf .bf16 Vv bitsLt_bf16_f32)) (ix2 r c') = Cert.ReferenceIdeal.Read.val_main_v38 (F := Ideal) Y I Wq bq Wk bk Wv bv (ix3 b R c') := fun c' => by
    rw [nrm_apply, Cert.ReferenceIdeal.RefVal.n1_apply, zero_add_lit, he c']
    refine congrArg (fun z : EReal => Cert.ReferenceIdeal.Read.val_main_v30 (F := Ideal) Y I Wq bq Wk bk Wv bv (ix3 b R c') * Ideal.rsqrt (max z (Ideal.ofBits .f32 0x2B8CBCCC#32))) (Finset.sum_congr rfl fun k _ => ?_)
    rw [he k]
  have hc : ∀ c', addf (ldVrows i Vv) (nrm (eT (aT (pT (sT (qT (ldRows i rows) (ldWq wc) (ldBq bc)) K))) (truncf .bf16 Vv bitsLt_bf16_f32))) (ix2 r c') = Cert.ReferenceIdeal.Read.val_main_v39 (F := Ideal) Y I Wq bq Wk bk Wv bv (ix3 b R c') := fun c' => by
    rw [addf_apply, Cert.ReferenceIdeal.RefVal.c_apply, ldVrows_apply i Vv r c' R hR, hV R c', hn1 c']
  rw [nrm_apply, Cert.ReferenceIdeal.RefVal.o_apply, zero_add_lit, hc c]
  refine congrArg (fun z : EReal => Cert.ReferenceIdeal.Read.val_main_v39 (F := Ideal) Y I Wq bq Wk bk Wv bv (ix3 b R c) * Ideal.rsqrt (max z (Ideal.ofBits .f32 0x2B8CBCCC#32))) (Finset.sum_congr rfl fun k _ => ?_)
  rw [hc k]

end Bridge

end Cert.KernelIdeal.Mth

end
-- ==== Proof.KI.Host.lean ====
/-
  What the region finds in its three input arrays, in terms of the eight arguments.
  @main's host operations before the region compute, from the first two arguments, the gathered rows (the same chain of
  operations, word for word, as the reference's gather stage: the index wrap, the range mask, the gather, the fill), and lay
  the three weight matrices side by side and the three bias vectors end to end. So a point of batch b is handed: batch b's
  gathered rows as the reference has them; a 256 x 384 matrix whose column 128 k + e is column e of the k-th weight matrix;
  a vector of 384 whose entry 128 k + e is entry e of the k-th bias.
-/
import proofs.«126917_j10161892623138_2_alg».proof.Proof.KI.Closed
import proofs.«126917_j10161892623138_2_alg».proof.Proof.KI.Tile
import proofs.«126917_j10161892623138_2_alg».proof.Proof.RefRead
import Idealize.ShloMosaic.Lib.StableHlo.Run
import Idealize.ShloMosaic.Lib.Pipeline.Value

set_option maxRecDepth 16384

noncomputable section

namespace Cert.KernelIdeal.Mth

open Idealize.ShloMosaic Idealize.ShloMosaic.ValueIdx

/-! ## Three equal pieces side by side, read at an entry -/

/-- Three [256, 128] matrices laid side by side along the columns: column 128 k + e of the result is column e of piece k. -/
theorem concat3_cols {α : Type} (f : Fin 3 → ((⟨2, ![256, 128]⟩ : Shape).Idx → α))
    (h : Shape.Concatenates [(⟨2, ![256, 128]⟩ : Shape), ⟨2, ![256, 128]⟩, ⟨2, ![256, 128]⟩] (⟨2, ![256, 384]⟩ : Shape) 1)
    (d : Fin 256) (e : Fin 128) (n : Fin 3) (k : Fin 384) (hk : k.val = 128 * n.val + e.val) :
    concatenate (⟨2, ![256, 384]⟩ : Shape) 1 [⟨⟨2, ![256, 128]⟩, f 0⟩, ⟨⟨2, ![256, 128]⟩, f 1⟩, ⟨⟨2, ![256, 128]⟩, f 2⟩] h (ix2 d k) = f n (ix2 d e) := by
  have he := e.isLt
  have hn := n.isLt
  exact concatenate_ofFn_apply (t := (⟨2, ![256, 384]⟩ : Shape)) (s₁ := (⟨2, ![256, 128]⟩ : Shape)) (1 : Fin 2) f h rfl 128 rfl (ix2 d k) n
    (by show k.val / 128 = n.val; omega) (ix2 d e) (by show e.val = k.val % 128; omega)
    (fun b hb => by
      match b with
      | ⟨0, _⟩ => rfl
      | ⟨1, _⟩ => exact absurd rfl hb)

/-- Three vectors of 128 laid end to end. -/
theorem concat3_vec {α : Type} (f : Fin 3 → ((⟨1, ![128]⟩ : Shape).Idx → α))
    (h : Shape.Concatenates [(⟨1, ![128]⟩ : Shape), ⟨1, ![128]⟩, ⟨1, ![128]⟩] (⟨1, ![384]⟩ : Shape) 0)
    (e : Fin 128) (n : Fin 3) (k : Fin 384) (hk : k.val = 128 * n.val + e.val) :
    concatenate (⟨1, ![384]⟩ : Shape) 0 [⟨⟨1, ![128]⟩, f 0⟩, ⟨⟨1, ![128]⟩, f 1⟩, ⟨⟨1, ![128]⟩, f 2⟩] h (ix1 k) = f n (ix1 e) := by
  have he := e.isLt
  have hn := n.isLt
  exact concatenate_ofFn_apply (t := (⟨1, ![384]⟩ : Shape)) (s₁ := (⟨1, ![128]⟩ : Shape)) (0 : Fin 1) f h rfl 128 rfl (ix1 k) n
    (by show k.val / 128 = n.val; omega) (ix1 e) (by show e.val = k.val % 128; omega)
    (fun b hb => by
      match b with
      | ⟨0, _⟩ => exact absurd rfl hb)

end Cert.KernelIdeal.Mth

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Idealize.ShloMosaic.ValueIdx

section AnyInstance
variable {F : FTy → Type} [FloatOps F]
variable (m : (ℓ : Loc nD τ sig) → Buf (Elt F) ℓ)

set_option maxRecDepth 262144 in
set_option maxHeartbeats 4000000 in
/-- The gathered rows are the reference's gather stage of the first two arguments. -/
theorem V_main_v1_eq (c : Dev nD) :
    (V m c main_v1 : (⟨S8x2048x256, .f32⟩ : BufTy).Contents (Elt F)) = Cert.ReferenceIdeal.Read.val_main_v1 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results
  rfl

set_option maxHeartbeats 2000000 in
/-- The weights side by side. -/
theorem V_main_v2_eq (c : Dev nD) :
    (V m c main_v2 : (⟨S256x384, .f32⟩ : BufTy).Contents (Elt F)) = concatenate S256x384 1 [⟨S256x128, (m ((c : Thread nD τ).loc main_arg2))⟩, ⟨S256x128, (m ((c : Thread nD τ).loc main_arg4))⟩, ⟨S256x128, (m ((c : Thread nD τ).loc main_arg6))⟩] concatenates_S256x128_S256x128_S256x128_S256x384_d1 := by
  dsimp only [V]
  simp only [hostOps0, hostOps0_1, hostOps0_2, List.flatten_cons, List.flatten_nil, List.append_nil, List.cons_append, List.nil_append]
  after_results
  rfl

set_option maxHeartbeats 2000000 in
/-- The biases end to end. -/
theorem V_main_v3_eq (c : Dev nD) :
    (V m c main_v3 : (⟨S384, .f32⟩ : BufTy).Contents (Elt F)) = concatenate S384 0 [⟨S128, (m ((c : Thread nD τ).loc main_arg3))⟩, ⟨S128, (m ((c : Thread nD τ).loc main_arg5))⟩, ⟨S128, (m ((c : Thread nD τ).loc main_arg7))⟩] concatenates_S128_S128_S128_S384_d0 := by
  dsimp only [V]
  simp only [hostOps0, hostOps0_1, hostOps0_2, List.flatten_cons, List.flatten_nil, List.append_nil, List.cons_append, List.nil_append]
  after_results
  rfl

end AnyInstance

variable (m : (ℓ : Loc nD τ sig) → Buf (Elt Ideal) ℓ)

/-- The three weight matrices, and the three biases, as families over the piece number. -/
def wOf (c : Dev nD) : Fin 3 → ((⟨2, ![256, 128]⟩ : Shape).Idx → EReal)
  | 0 => (m ((c : Thread nD τ).loc main_arg2)) | 1 => (m ((c : Thread nD τ).loc main_arg4)) | 2 => (m ((c : Thread nD τ).loc main_arg6))
def bOf (c : Dev nD) : Fin 3 → ((⟨1, ![128]⟩ : Shape).Idx → EReal)
  | 0 => (m ((c : Thread nD τ).loc main_arg3)) | 1 => (m ((c : Thread nD τ).loc main_arg5)) | 2 => (m ((c : Thread nD τ).loc main_arg7))

theorem wcat_apply (c : Dev nD) (d : Fin 256) (e : Fin 128) (n : Fin 3) (k : Fin 384) (hk : k.val = 128 * n.val + e.val) :
    wcat (F := Ideal) m c (ix2 d k) = wOf m c n (ix2 d e) := by
  show (V m c main_v2 : (⟨S256x384, .f32⟩ : BufTy).Contents (Elt Ideal)) (ix2 d k) = _
  rw [V_main_v2_eq]
  exact Cert.KernelIdeal.Mth.concat3_cols (wOf m c) concatenates_S256x128_S256x128_S256x128_S256x384_d1 d e n k hk

theorem bcat_apply (c : Dev nD) (e : Fin 128) (n : Fin 3) (k : Fin 384) (hk : k.val = 128 * n.val + e.val) :
    bcat (F := Ideal) m c (ix1 k) = bOf m c n (ix1 e) := by
  show (V m c main_v3 : (⟨S384, .f32⟩ : BufTy).Contents (Elt Ideal)) (ix1 k) = _
  rw [V_main_v3_eq]
  exact Cert.KernelIdeal.Mth.concat3_vec (bOf m c) concatenates_S128_S128_S128_S384_d0 e n k hk

/-- So a point of batch `b` is handed the blocks the tile lemmas ask for. -/
theorem inputs (c : Dev nD) (b : Fin 8) :
    Cert.KernelIdeal.Mth.Inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b (rowsOf m c b) (wcat m c) (bcat m c) where
  hrows := fun n d => by
    unfold rowsOf
    rw [V_main_v1_eq]
  hWq := fun d e => wcat_apply m c d e 0 _ (by simp)
  hWk := fun d e => wcat_apply m c d e 1 _ (by simp)
  hWv := fun d e => wcat_apply m c d e 2 _ (by simp)
  hbq := fun e => bcat_apply m c e 0 _ (by simp)
  hbk := fun e => bcat_apply m c e 1 _ (by simp)
  hbv := fun e => bcat_apply m c e 2 _ (by simp)

end Cert.KernelIdeal.Val

end
-- ==== Proof.KI.Value.lean ====
/-
  The kernel's two result arrays, at the ideal instance, are the reference's.
  The reference's last stages, as functions of the eight arguments, name the two arrays: the attention weights
  [8, 2048, 2048] and the normalised outputs [8, 2048, 128]. Point t of the grid (batch b = t / 4, query tile t % 4) writes
  back, into rows 512 (t % 4) .. 512 (t % 4) + 511 of batch b of each result array, the tile the body computed from batch b's
  gathered rows, the weights and biases, and batch b's key and value projections. Each such tile is the reference's array
  restricted to those rows (the two lemmas on the tiles, from the module on the tile against the reference); the 32 blocks
  tile each array; so each array ends as the reference's.
-/
import proofs.«126917_j10161892623138_2_alg».proof.Proof.KI.Closed
import proofs.«126917_j10161892623138_2_alg».proof.Proof.KI.Host
import proofs.«126917_j10161892623138_2_alg».proof.Proof.KI.Body
import proofs.«126917_j10161892623138_2_alg».proof.Proof.RefRead
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The attention weights and the normalised outputs, as the reference computes them from the eight arguments. -/
def attRef (c : Dev nD) : Buf (Elt Ideal) ((c : Thread nD τ).loc main_v4_1) :=
  Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
def outRef (c : Dev nD) : Buf (Elt Ideal) ((c : Thread nD τ).loc main_v4_0) :=
  Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-! ## The tiles are the reference's arrays restricted to the tile's rows -/

theorem tileAtt_ref (c : Dev nD) (i : grid0.Coords) (b : Fin 8) (r : Fin 512) (n : Fin 2048) (R : Fin 2048) (hR : R.val = 512 * (i 1).val + r.val) :
    tileAtt (F := Ideal) i (rowsOf m c b) (wcat m c) (bcat m c) (keyOf m c b) (ix3 (0 : Fin 1) r n) = attRef m c (ix3 b R n) :=
  Cert.KernelIdeal.Mth.tileAttM (inputs m c b) (fun n' e => Cert.KernelIdeal.Mth.keyM (inputs m c b) n' e) r R hR n

theorem tileOut_ref (c : Dev nD) (i : grid0.Coords) (b : Fin 8) (r : Fin 512) (e : Fin 128) (R : Fin 2048) (hR : R.val = 512 * (i 1).val + r.val) :
    tileOut (F := Ideal) i (rowsOf m c b) (wcat m c) (bcat m c) (keyOf m c b) (valOf m c b) (ix3 (0 : Fin 1) r e) = outRef m c (ix3 b R e) :=
  Cert.KernelIdeal.Mth.tileOutM (inputs m c b) (fun n' e' => Cert.KernelIdeal.Mth.keyM (inputs m c b) n' e')
    (fun n' e' => Cert.KernelIdeal.Mth.valM (inputs m c b) n' e') r R hR e

/-! ## From the blocks to the arrays -/

/-- Where the two output windows' blocks sit, and the tile a point works on. -/
theorem idx_facts3 : ∀ t : Fin cfg0.N, win0_3.index t 0 = t.val / 4 ∧ win0_3.index t 1 = t.val % 4 ∧ win0_3.index t 2 = 0 ∧ ((grid0.coords t) 1).val = t.val % 4 :=
  (by decide +kernel : ∀ t : Fin grid0.N, win0_3.index t 0 = t.val / 4 ∧ win0_3.index t 1 = t.val % 4 ∧ win0_3.index t 2 = 0 ∧ ((grid0.coords t) 1).val = t.val % 4)
theorem idx_facts4 : ∀ t : Fin cfg0.N, win0_4.index t 0 = t.val / 4 ∧ win0_4.index t 1 = t.val % 4 ∧ win0_4.index t 2 = 0 ∧ ((grid0.coords t) 1).val = t.val % 4 :=
  (by decide +kernel : ∀ t : Fin grid0.N, win0_4.index t 0 = t.val / 4 ∧ win0_4.index t 1 = t.val % 4 ∧ win0_4.index t 2 = 0 ∧ ((grid0.coords t) 1).val = t.val % 4)
/-- Every (batch, tile) is some point's. -/
theorem idx_onto : ∀ (q0 : Fin 8) (q1 : Fin 4), ∃ t : Fin cfg0.N, t.val / 4 = q0.val ∧ t.val % 4 = q1.val :=
  (by decide +kernel : ∀ (q0 : Fin 8) (q1 : Fin 4), ∃ t : Fin grid0.N, t.val / 4 = q0.val ∧ t.val % 4 = q1.val)

/-- What point `t` writes back into the attention array is that array's block there. -/
theorem flushed4_eq (c : Dev nD) (t : Fin cfg0.N) :
    (dats (F := Ideal) m 0 c).flushed 4 t = ((cfg0.win 4).blk t).view.read (Elt Ideal) (attRef m c) := by
  show (cfg0.win 4).cut (grid0.coords t) ((dats (F := Ideal) m 0 c).after 4 t) = _
  rw [after0_4, outsAt_eq]
  obtain ⟨e0, e1, e2, e3⟩ := idx_facts4 t
  have hN : t.val < 32 := lt_of_lt_of_eq t.isLt (show cfg0.N = 32 from N_0)
  funext j
  have h0 : (j 0).val < 1 := (j 0).isLt
  have h1 : (j 1).val < 512 := (j 1).isLt
  have h2 : (j 2).val < 2048 := (j 2).isLt
  show tileAtt (F := Ideal) (grid0.coords t) _ _ _ _ j = attRef m c (((cfg0.win 4).blk t).view.emb j)
  have hj : j = ix3 (0 : Fin 1) (⟨(j 1).val, h1⟩ : Fin 512) (⟨(j 2).val, h2⟩ : Fin 2048) := by
    funext a; apply Fin.ext
    match a with
    | ⟨0, _⟩ => show (j 0).val = 0; omega
    | ⟨1, _⟩ => rfl
    | ⟨2, _⟩ => rfl
  have he : ((cfg0.win 4).blk t).view.emb j = ix3 (⟨t.val / 4, batch_lt t.val t.isLt⟩ : Fin 8) (⟨512 * (t.val % 4) + (j 1).val, by omega⟩ : Fin 2048) (⟨(j 2).val, h2⟩ : Fin 2048) := by
    funext a; apply Fin.ext
    match a with
    | ⟨0, _⟩ => show win0_4.index t 0 * 1 + 1 * (j 0).val = t.val / 4; omega
    | ⟨1, _⟩ => show win0_4.index t 1 * 512 + 1 * (j 1).val = 512 * (t.val % 4) + (j 1).val; omega
    | ⟨2, _⟩ => show win0_4.index t 2 * 2048 + 1 * (j 2).val = (j 2).val; omega
  rw [he]
  have key := tileAtt_ref m c (grid0.coords t) (⟨t.val / 4, batch_lt t.val t.isLt⟩ : Fin 8) (⟨(j 1).val, h1⟩ : Fin 512) (⟨(j 2).val, h2⟩ : Fin 2048)
    (⟨512 * (t.val % 4) + (j 1).val, by omega⟩ : Fin 2048) (by show 512 * (t.val % 4) + (j 1).val = 512 * ((grid0.coords t) 1).val + (j 1).val; rw [e3])
  rw [← hj] at key
  exact key

theorem flushed3_eq (c : Dev nD) (t : Fin cfg0.N) :
    (dats (F := Ideal) m 0 c).flushed 3 t = ((cfg0.win 3).blk t).view.read (Elt Ideal) (outRef m c) := by
  show (cfg0.win 3).cut (grid0.coords t) ((dats (F := Ideal) m 0 c).after 3 t) = _
  rw [after0_3, outsAt_eq]
  obtain ⟨e0, e1, e2, e3⟩ := idx_facts3 t
  have hN : t.val < 32 := lt_of_lt_of_eq t.isLt (show cfg0.N = 32 from N_0)
  funext j
  have h0 : (j 0).val < 1 := (j 0).isLt
  have h1 : (j 1).val < 512 := (j 1).isLt
  have h2 : (j 2).val < 128 := (j 2).isLt
  show tileOut (F := Ideal) (grid0.coords t) _ _ _ _ _ j = outRef m c (((cfg0.win 3).blk t).view.emb j)
  have hj : j = ix3 (0 : Fin 1) (⟨(j 1).val, h1⟩ : Fin 512) (⟨(j 2).val, h2⟩ : Fin 128) := by
    funext a; apply Fin.ext
    match a with
    | ⟨0, _⟩ => show (j 0).val = 0; omega
    | ⟨1, _⟩ => rfl
    | ⟨2, _⟩ => rfl
  have he : ((cfg0.win 3).blk t).view.emb j = ix3 (⟨t.val / 4, batch_lt t.val t.isLt⟩ : Fin 8) (⟨512 * (t.val % 4) + (j 1).val, by omega⟩ : Fin 2048) (⟨(j 2).val, h2⟩ : Fin 128) := by
    funext a; apply Fin.ext
    match a with
    | ⟨0, _⟩ => show win0_3.index t 0 * 1 + 1 * (j 0).val = t.val / 4; omega
    | ⟨1, _⟩ => show win0_3.index t 1 * 512 + 1 * (j 1).val = 512 * (t.val % 4) + (j 1).val; omega
    | ⟨2, _⟩ => show win0_3.index t 2 * 128 + 1 * (j 2).val = (j 2).val; omega
  rw [he]
  have key := tileOut_ref m c (grid0.coords t) (⟨t.val / 4, batch_lt t.val t.isLt⟩ : Fin 8) (⟨(j 1).val, h1⟩ : Fin 512) (⟨(j 2).val, h2⟩ : Fin 128)
    (⟨512 * (t.val % 4) + (j 1).val, by omega⟩ : Fin 2048) (by show 512 * (t.val % 4) + (j 1).val = 512 * ((grid0.coords t) 1).val + (j 1).val; rw [e3])
  rw [← hj] at key
  exact key

/-- An index of a result array is in point `t`'s block iff each coordinate is in the block's range. -/
theorem mem_blk4 (t : Fin cfg0.N) (i : S8x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v4_1).slice (win0_4.rect t)).set ↔ _
  rw [View.set_slice_whole, Rect.mem_set_unit]
  exact Iff.rfl
theorem mem_blk3 (t : Fin cfg0.N) (i : S8x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v4_0).slice (win0_3.rect t)).set ↔ _
  rw [View.set_slice_whole, Rect.mem_set_unit]
  exact Iff.rfl

/-- The 32 blocks cover each result array: row R of batch b lies in the block of the point with t / 4 = b, t % 4 = R / 512. -/
theorem cover4 (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht0, ht1⟩ := idx_onto ⟨(i 0).val, hi0⟩ ⟨(i 1).val / 512, by omega⟩
  obtain ⟨e0, e1, e2, e3⟩ := idx_facts4 t
  refine ⟨t, flush0_4 t, ?_⟩
  rw [mem_blk4]
  intro a
  match a with
  | ⟨0, _⟩ => show win0_4.index t 0 * 1 ≤ (i 0).val ∧ (i 0).val < win0_4.index t 0 * 1 + 1; simp only at ht0 ht1; omega
  | ⟨1, _⟩ => show win0_4.index t 1 * 512 ≤ (i 1).val ∧ (i 1).val < win0_4.index t 1 * 512 + 512; simp only at ht0 ht1; omega
  | ⟨2, _⟩ => show win0_4.index t 2 * 2048 ≤ (i 2).val ∧ (i 2).val < win0_4.index t 2 * 2048 + 2048; omega
theorem cover3 (i : S8x2048x128.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht0, ht1⟩ := idx_onto ⟨(i 0).val, hi0⟩ ⟨(i 1).val / 512, by omega⟩
  obtain ⟨e0, e1, e2, e3⟩ := idx_facts3 t
  refine ⟨t, flush0_3 t, ?_⟩
  rw [mem_blk3]
  intro a
  match a with
  | ⟨0, _⟩ => show win0_3.index t 0 * 1 ≤ (i 0).val ∧ (i 0).val < win0_3.index t 0 * 1 + 1; simp only at ht0 ht1; omega
  | ⟨1, _⟩ => show win0_3.index t 1 * 512 ≤ (i 1).val ∧ (i 1).val < win0_3.index t 1 * 512 + 512; simp only at ht0 ht1; omega
  | ⟨2, _⟩ => show win0_3.index t 2 * 128 ≤ (i 2).val ∧ (i 2).val < win0_3.index t 2 * 128 + 128; omega

/-- So the two result arrays end as the reference's. -/
theorem final4 (c : Dev nD) : (dats (F := Ideal) m 0 c).arrAt 4 cfg0.N = attRef m c :=
  (dats (F := Ideal) m 0 c).arrAt_eq_of_cover 4 (attRef m c) (fun t _ => flushed4_eq m c t) cover4
theorem final3 (c : Dev nD) : (dats (F := Ideal) m 0 c).arrAt 3 cfg0.N = outRef m c :=
  (dats (F := Ideal) m 0 c).arrAt_eq_of_cover 3 (outRef m c) (fun t _ => flushed3_eq m c t) cover3

/-- The run, read: each result array at the reference's function of the arguments, the arguments unchanged. -/
theorem run : θ_run defs (onTc (τ := τ) (main (F := Ideal))) ⟨m, fun _ => 0, ρ⟩ fun r => ∀ c : Dev nD,
      r.2.mem ((c.tc : Thread nD τ).loc main_v4_0) = outRef m c
      ∧ r.2.mem ((c.tc : Thread nD τ).loc main_v4_1) = attRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main (F := Ideal) m ρ)

end Cert.KernelIdeal.Val

end
-- ==== Proof.lean ====
/-
  The five claims about the fused attention kernel and its reference.

  Both kernel programs (the word-level one and its idealization, whose text differs only in the instance it is read at)
  run to the end without a fault and leave their eight argument arrays unchanged: @main's host operations write only
  their own result buffers, the region's pipeline writes only the two result arrays, and the body at every grid point
  runs given what the pipeline hands it and what the point before left in the two scratch buffers (Proof/K, Proof/KI).
  The reference is a straight line of host operations; its run is read back operation by operation (Proof/RefRun).
  The idealization rewrote nothing, so there is nothing to preserve.
  At the ideal instance the two programs compute the same two arrays: the kernel's per-tile computation, with the key
  and value projections of a batch built once and reused by its four query tiles, is the reference's whole-array
  computation restricted to the tile's rows.
-/
import proofs.«126917_j10161892623138_2_alg».proof.Defs
import proofs.«126917_j10161892623138_2_alg».proof.Proof.Gen.Kernel
import proofs.«126917_j10161892623138_2_alg».proof.Proof.Gen.KernelIdeal
import proofs.«126917_j10161892623138_2_alg».proof.Proof.Gen.ReferenceIdeal
import proofs.«126917_j10161892623138_2_alg».proof.Proof.Gen.Pre_finite_inputs
import proofs.«126917_j10161892623138_2_alg».proof.Proof.K.Body
import proofs.«126917_j10161892623138_2_alg».proof.Proof.KI.Body
import proofs.«126917_j10161892623138_2_alg».proof.Proof.RefRun
import proofs.«126917_j10161892623138_2_alg».proof.Proof.RefRead
import proofs.«126917_j10161892623138_2_alg».proof.Proof.KI.Value
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance the kernel's two result arrays end as the reference's last two stages of the kernel's own
    arguments (Proof/KI/Value), and the reference's run ends at those stages of its arguments, which agree. -/
theorem algebraic : Cert.algebraic_KernelIdeal_ReferenceIdeal := by
  intro m ρ m' ρ' _ hagree
  refine ⟨fun c => Cert.KernelIdeal.Val.outRef m c, fun c => Cert.KernelIdeal.Val.attRef m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have e := hagree c
    rw [Cert.ReferenceIdeal.Read.val_main_v47_eq, e.1, e.2.1, e.2.2.1, e.2.2.2.1, e.2.2.2.2.1, e.2.2.2.2.2.1, e.2.2.2.2.2.2.1, e.2.2.2.2.2.2.2]
    rfl
  · have e := hagree c
    rw [Cert.ReferenceIdeal.Read.val_main_v29_eq, e.1, e.2.1, e.2.2.1, e.2.2.2.1, e.2.2.2.2.1, e.2.2.2.2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
